-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x30 : Shape := ⟨2, ![100000, 30]⟩
abbrev S2x1600000 : Shape := ⟨2, ![2, 1600000]⟩
abbrev S30x20 : Shape := ⟨2, ![30, 20]⟩
abbrev S20 : Shape := ⟨1, ![20]⟩
abbrev S10x5 : Shape := ⟨2, ![10, 5]⟩
abbrev S5 : Shape := ⟨1, ![5]⟩
abbrev S5x2 : Shape := ⟨2, ![5, 2]⟩
abbrev S2 : Shape := ⟨1, ![2]⟩
abbrev S_ : Shape := ⟨0, ![]⟩

class Facts : Prop where
  bcast_S_S100000x30 : S_.BroadcastsInDim S100000x30 (![] : Fin 0 → Fin S100000x30.rank)
  reducesTo_S100000x30_S_d0_1 : S100000x30.ReducesTo [0, 1] S_
  h_S_ : 0 < S_.numel
  bcast_S_S30x20 : S_.BroadcastsInDim S30x20 (![] : Fin 0 → Fin S30x20.rank)
  reducesTo_S30x20_S_d0_1 : S30x20.ReducesTo [0, 1] S_
  bcast_S_S20 : S_.BroadcastsInDim S20 (![] : Fin 0 → Fin S20.rank)
  reducesTo_S20_S_d0 : S20.ReducesTo [0] S_
  bcast_S_S10x5 : S_.BroadcastsInDim S10x5 (![] : Fin 0 → Fin S10x5.rank)
  reducesTo_S10x5_S_d0_1 : S10x5.ReducesTo [0, 1] S_
  bcast_S_S5 : S_.BroadcastsInDim S5 (![] : Fin 0 → Fin S5.rank)
  reducesTo_S5_S_d0 : S5.ReducesTo [0] S_
  bcast_S_S5x2 : S_.BroadcastsInDim S5x2 (![] : Fin 0 → Fin S5x2.rank)
  reducesTo_S5x2_S_d0_1 : S5x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S5 .f32) (main_arg6 : FVec F S5x2 .f32) (main_arg7 : FVec F S2 .f32) (main_v13 : IVec S_ 1) (main_v16 : IVec S10x5 1) : IVec S_ 1 :=
  let main_c_5 : IVec S_ 1 := constantI S_ 1 1#1
  let main_v17 : IVec S_ 1 := (fun x v => Host.reduce IntOp.andi x v reducesTo_S10x5_S_d0_1 h_S_) main_v16 main_c_5
  let main_v18 : IVec S_ 1 := andi main_v13 main_v17
  let main_v19 : FVec F S5 .f32 := Host.absf main_arg5
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  let main_v24 : FVec F S5x2 .f32 := Host.absf main_arg6
  let main_cst_8 : FVec F S_ .f32 := constant S_ .f32 0x7F800000#32
  let main_v25 : FVec F S5x2 .f32 := broadcastInDim S5x2 ![] bcast_S_S5x2 main_cst_8
  let main_v26 : IVec S5x2 1 := cmpf .olt main_v24 main_v25
  let main_c_9 : IVec S_ 1 := constantI S_ 1 1#1
  let main_v27 : IVec S_ 1 := (fun x v => Host.reduce IntOp.andi x v reducesTo_S5x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x30 .f32) (main_arg1 : IVec S2x1600000 32) (main_arg2 : FVec F S30x20 .f32) (main_arg3 : FVec F S20 .f32) (main_arg4 : FVec F S10x5 .f32) (main_arg5 : FVec F S5 .f32) (main_arg6 : FVec F S5x2 .f32) (main_arg7 : FVec F S2 .f32) : IVec S_ 1 :=
  let main_v0 : FVec F S100000x30 .f32 := Host.absf main_arg0
  let main_cst : FVec F S_ .f32 := constant S_ .f32 0x7F800000#32
  let main_v1 : FVec F S100000x30 .f32 := broadcastInDim S100000x30 ![] bcast_S_S100000x30 main_cst
  let main_v2 : IVec S100000x30 1 := cmpf .olt main_v0 main_v1
  let main_c : IVec S_ 1 := constantI S_ 1 1#1
  let main_v3 : IVec S_ 1 := (fun x v => Host.reduce IntOp.andi x v reducesTo_S100000x30_S_d0_1 h_S_) main_v2 main_c
  let main_v4 : FVec F S30x20 .f32 := Host.absf main_arg2
  let main_cst_0 : FVec F S_ .f32 := constant S_ .f32 0x7F800000#32
  let main_v5 : FVec F S30x20 .f32 := broadcastInDim S30x20 ![] bcast_S_S30x20 main_cst_0
  let main_v6 : IVec S30x20 1 := cmpf .olt main_v4 main_v5
  let main_c_1 : IVec S_ 1 := constantI S_ 1 1#1
  let main_v7 : IVec S_ 1 := (fun x v => Host.reduce IntOp.andi x v reducesTo_S30x20_S_d0_1 h_S_) main_v6 main_c_1
  let main_v8 : IVec S_ 1 := andi main_v3 main_v7
  let main_v9 : FVec F S20 .f32 := Host.absf main_arg3
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S10x5 .f32 := Host.absf main_arg4
  let main_cst_4 : FVec F S_ .f32 := constant S_ .f32 0x7F800000#32
  let main_v15 : FVec F S10x5 .f32 := broadcastInDim S10x5 ![] bcast_S_S10x5 main_cst_4
  let main_v16 : IVec S10x5 1 := cmpf .olt main_v14 main_v15
  fn_part1 (F := F) main_arg5 main_arg6 main_arg7 main_v13 main_v16
-- ==== Kernel.lean ====
abbrev S100000x30 : Shape := ⟨2, ![100000, 30]⟩
abbrev S2x1600000 : Shape := ⟨2, ![2, 1600000]⟩
abbrev S30x20 : Shape := ⟨2, ![30, 20]⟩
abbrev S20 : Shape := ⟨1, ![20]⟩
abbrev S10x5 : Shape := ⟨2, ![10, 5]⟩
abbrev S5 : Shape := ⟨1, ![5]⟩
abbrev S5x2 : Shape := ⟨2, ![5, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x20 : Shape := ⟨2, ![100000, 20]⟩
abbrev S5000x30 : Shape := ⟨2, ![5000, 30]⟩
abbrev S5000x20 : Shape := ⟨2, ![5000, 20]⟩
abbrev S1700000x20 : Shape := ⟨2, ![1700000, 20]⟩
abbrev S1x20 : Shape := ⟨2, ![1, 20]⟩
abbrev S100000x5 : Shape := ⟨2, ![100000, 5]⟩
abbrev S5000x5 : Shape := ⟨2, ![5000, 5]⟩
abbrev S5000x10x2 : Shape := ⟨3, ![5000, 10, 2]⟩
abbrev S5000x10 : Shape := ⟨2, ![5000, 10]⟩
abbrev S1700000x5 : Shape := ⟨2, ![1700000, 5]⟩
abbrev S1x5 : Shape := ⟨2, ![1, 5]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 79
  | .vmem => 18
  | .smem => 0
  | _ => 0

abbrev bufTy : (tb : Table) → Fin (tcTables nBuf tb) → BufTy
  | .hbm, ⟨0, _⟩ => ⟨S100000x30, .f32⟩
  | .hbm, ⟨1, _⟩ => ⟨S2x1600000, .i32⟩
  | .hbm, ⟨2, _⟩ => ⟨S30x20, .f32⟩
  | .hbm, ⟨3, _⟩ => ⟨S20, .f32⟩
  | .hbm, ⟨4, _⟩ => ⟨S10x5, .f32⟩
  | .hbm, ⟨5, _⟩ => ⟨S5, .f32⟩
  | .hbm, ⟨6, _⟩ => ⟨S5x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S100000x20, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x20, .f32⟩
  | .hbm, ⟨51, _⟩ => ⟨S1700000x1, .f32⟩
  | .hbm, ⟨52, _⟩ => ⟨S1700000x20, .f32⟩
  | .hbm, ⟨53, _⟩ => ⟨S1700000x20, .f32⟩
  | .hbm, ⟨54, _⟩ => ⟨S_, .f32⟩
  | .hbm, ⟨55, _⟩ => ⟨S100000x20, .f32⟩
  | .hbm, ⟨56, _⟩ => ⟨S1700000x1, .i32⟩
  | .hbm, ⟨57, _⟩ => ⟨S100000x20, .f32⟩
  | .hbm, ⟨58, _⟩ => ⟨S1x20, .f32⟩
  | .hbm, ⟨59, _⟩ => ⟨S100000x5, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x5, .f32⟩
  | .hbm, ⟨69, _⟩ => ⟨S1700000x1, .f32⟩
  | .hbm, ⟨70, _⟩ => ⟨S1700000x5, .f32⟩
  | .hbm, ⟨71, _⟩ => ⟨S1700000x5, .f32⟩
  | .hbm, ⟨72, _⟩ => ⟨S_, .f32⟩
  | .hbm, ⟨73, _⟩ => ⟨S100000x5, .f32⟩
  | .hbm, ⟨74, _⟩ => ⟨S1700000x1, .i32⟩
  | .hbm, ⟨75, _⟩ => ⟨S100000x5, .f32⟩
  | .hbm, ⟨76, _⟩ => ⟨S1x5, .f32⟩
  | .hbm, ⟨77, _⟩ => ⟨S1x2, .f32⟩
  | .hbm, ⟨78, _⟩ => ⟨S100000x2, .f32⟩
  | .local _ .vmem, ⟨0, _⟩ => ⟨S5000x30, .f32⟩
  | .local _ .vmem, ⟨1, _⟩ => ⟨S5000x30, .f32⟩
  | .local _ .vmem, ⟨2, _⟩ => ⟨S30x20, .f32⟩
  | .local _ .vmem, ⟨3, _⟩ => ⟨S5000x20, .f32⟩
  | .local _ .vmem, ⟨4, _⟩ => ⟨S5000x20, .f32⟩
  | .local _ .vmem, ⟨5, _⟩ => ⟨S5000x20, .f32⟩
  | .local _ .vmem, ⟨6, _⟩ => ⟨S5000x20, .f32⟩
  | .local _ .vmem, ⟨7, _⟩ => ⟨S1x20, .f32⟩
  | .local _ .vmem, ⟨8, _⟩ => ⟨S10x5, .f32⟩
  | .local _ .vmem, ⟨9, _⟩ => ⟨S5000x5, .f32⟩
  | .local _ .vmem, ⟨10, _⟩ => ⟨S5000x5, .f32⟩
  | .local _ .vmem, ⟨11, _⟩ => ⟨S5000x5, .f32⟩
  | .local _ .vmem, ⟨12, _⟩ => ⟨S5000x5, .f32⟩
  | .local _ .vmem, ⟨13, _⟩ => ⟨S1x5, .f32⟩
  | .local _ .vmem, ⟨14, _⟩ => ⟨S5x2, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S100000x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x20 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10x5 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x5 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S5x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x30_S5000x30_0_0 : ∀ a, (![0, 0] : Fin 2 → Nat) a + S5000x30.size a ≤ S5000x30.size a
  h_S5000x30 : 0 < S5000x30.numel
  bitsLt_bf16_f32 : FTy.bits .bf16 < FTy.bits .f32
  inb_S30x20_S30x20_0_0 : ∀ a, (![0, 0] : Fin 2 → Nat) a + S30x20.size a ≤ S30x20.size a
  h_S30x20 : 0 < S30x20.numel
  inb_S5000x20_S5000x20_0_0 : ∀ a, (![0, 0] : Fin 2 → Nat) a + S5000x20.size a ≤ S5000x20.size a
  h_S5000x20 : 0 < S5000x20.numel
  bcast_S1700000x1_S1700000x20_0_1 : S1700000x1.BroadcastsInDim S1700000x20 (![0, 1] : Fin 2 → Fin S1700000x20.rank)
  bcast_S_S100000x20 : S_.BroadcastsInDim S100000x20 (![] : Fin 0 → Fin S100000x20.rank)
  shapeCasts_S20_S1x20 : S20.ShapeCasts S1x20
  shapeCasts_S5000x20_S5000x20 : S5000x20.ShapeCasts S5000x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S5000x20 : S1x20.Broadcasts S5000x20
  shapeCasts_S5000x20_S5000x10x2 : S5000x20.ShapeCasts S5000x10x2
  reduces_S5000x10x2_S5000x10 : S5000x10x2.Reduces [2] S5000x10
  inb_S10x5_S10x5_0_0 : ∀ a, (![0, 0] : Fin 2 → Nat) a + S10x5.size a ≤ S10x5.size a
  h_S10x5 : 0 < S10x5.numel
  inb_S5000x5_S5000x5_0_0 : ∀ a, (![0, 0] : Fin 2 → Nat) a + S5000x5.size a ≤ S5000x5.size a
  h_S5000x5 : 0 < S5000x5.numel
  bcast_S1700000x1_S1700000x5_0_1 : S1700000x1.BroadcastsInDim S1700000x5 (![0, 1] : Fin 2 → Fin S1700000x5.rank)
  bcast_S_S100000x5 : S_.BroadcastsInDim S100000x5 (![] : Fin 0 → Fin S100000x5.rank)
  shapeCasts_S5_S1x5 : S5.ShapeCasts S1x5
  shapeCasts_S2_S1x2 : S2.ShapeCasts S1x2
  shapeCasts_S5000x5_S5000x5 : S5000x5.ShapeCasts S5000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  inb_S5x2_S5x2_0_0 : ∀ a, (![0, 0] : Fin 2 → Nat) a + S5x2.size a ≤ S5x2.size a
  h_S5x2 : 0 < S5x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x30_S30x20_S5000x20_1_0_0_1_n_n_wf : DotDims.WF S5000x30 S30x20 S5000x20 [1] [0] [0] [1] [] []
  gather_S100000x20_S1700000x1_S1700000x20_1_0_n_n_0_1_120_wf : GatherDims.WF S100000x20 S1700000x1 S1700000x20 [1] [0] [] [0] [] 1 ![1, 20]
  scatter_S100000x20_S1700000x1_S1700000x20_1_0_0_1_wf : ScatterDims.WF S100000x20 S1700000x1 S1700000x20 [1] [0] [0] 1
  dot_S5000x10_S10x5_S5000x5_1_0_0_1_n_n_wf : DotDims.WF S5000x10 S10x5 S5000x5 [1] [0] [0] [1] [] []
  gather_S100000x5_S1700000x1_S1700000x5_1_0_n_n_0_1_15_wf : GatherDims.WF S100000x5 S1700000x1 S1700000x5 [1] [0] [] [0] [] 1 ![1, 5]
  scatter_S100000x5_S1700000x1_S1700000x5_1_0_0_1_wf : ScatterDims.WF S100000x5 S1700000x1 S1700000x5 [1] [0] [0] 1
  dot_S5000x5_S5x2_S5000x2_1_0_0_1_n_n_wf : DotDims.WF S5000x5 S5x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x30.size a ≤ S100000x30.size a
  hwx0_0 : ∀ i : grid0.Coords, EltTy.bits .f32 = 32 ∨ (Rect.block (s := S100000x30) S5000x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x20.size a ≤ S30x20.size a
  hwx0_1 : ∀ i : grid0.Coords, EltTy.bits .f32 = 32 ∨ (Rect.block (s := S30x20) S30x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x20.size a ≤ S100000x20.size a
  hwx0_2 : ∀ i : grid0.Coords, EltTy.bits .f32 = 32 ∨ (Rect.block (s := S100000x20) S5000x20.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x20.size a ≤ S100000x20.size a
  hwx1_0 : ∀ i : grid1.Coords, EltTy.bits .f32 = 32 ∨ (Rect.block (s := S100000x20) S5000x20.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x20.size a ≤ S1x20.size a
  hwx1_1 : ∀ i : grid1.Coords, EltTy.bits .f32 = 32 ∨ (Rect.block (s := S1x20) S1x20.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x5.size a ≤ S10x5.size a
  hwx1_2 : ∀ i : grid1.Coords, EltTy.bits .f32 = 32 ∨ (Rect.block (s := S10x5) S10x5.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x5.size a ≤ S100000x5.size a
  hwx1_3 : ∀ i : grid1.Coords, EltTy.bits .f32 = 32 ∨ (Rect.block (s := S100000x5) S5000x5.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x5.size a ≤ S100000x5.size a
  hwx2_0 : ∀ i : grid2.Coords, EltTy.bits .f32 = 32 ∨ (Rect.block (s := S100000x5) S5000x5.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x5.size a ≤ S1x5.size a
  hwx2_1 : ∀ i : grid2.Coords, EltTy.bits .f32 = 32 ∨ (Rect.block (s := S1x5) S1x5.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S5x2.size a ≤ S5x2.size a
  hwx2_2 : ∀ i : grid2.Coords, EltTy.bits .f32 = 32 ∨ (Rect.block (s := S5x2) S5x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S100000x2.size a
  hwx2_4 : ∀ i : grid2.Coords, EltTy.bits .f32 = 32 ∨ (Rect.block (s := S100000x2) S5000x2.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x30_S30x20_S5000x20_1_0_0_1_n_n : DotDims S5000x30 S30x20 S5000x20 where
  lhsContracting := [1]
  rhsContracting := [0]
  lhsNonContracting := [0]
  rhsNonContracting := [1]
  lhsBatch := []
  rhsBatch := []
  wf := dot_S5000x30_S30x20_S5000x20_1_0_0_1_n_n_wf
def gather_S100000x20_S1700000x1_S1700000x20_1_0_n_n_0_1_120 : GatherDims S100000x20 S1700000x1 S1700000x20 where
  offsetDims := [1]
  collapsedSliceDims := [0]
  operandBatchingDims := []
  startIndicesBatchingDims := []
  startIndexMap := [0]
  indexVectorDim := 1
  sliceSizes := ![1, 20]
  wf := gather_S100000x20_S1700000x1_S1700000x20_1_0_n_n_0_1_120_wf
def scatter_S100000x20_S1700000x1_S1700000x20_1_0_0_1 : ScatterDims S100000x20 S1700000x1 S1700000x20 where
  updateWindowDims := [1]
  insertedWindowDims := [0]
  scatterDimsToOperandDims := [0]
  indexVectorDim := 1
  wf := scatter_S100000x20_S1700000x1_S1700000x20_1_0_0_1_wf
def dot_S5000x10_S10x5_S5000x5_1_0_0_1_n_n : DotDims S5000x10 S10x5 S5000x5 where
  lhsContracting := [1]
  rhsContracting := [0]
  lhsNonContracting := [0]
  rhsNonContracting := [1]
  lhsBatch := []
  rhsBatch := []
  wf := dot_S5000x10_S10x5_S5000x5_1_0_0_1_n_n_wf
def gather_S100000x5_S1700000x1_S1700000x5_1_0_n_n_0_1_15 : GatherDims S100000x5 S1700000x1 S1700000x5 where
  offsetDims := [1]
  collapsedSliceDims := [0]
  operandBatchingDims := []
  startIndicesBatchingDims := []
  startIndexMap := [0]
  indexVectorDim := 1
  sliceSizes := ![1, 5]
  wf := gather_S100000x5_S1700000x1_S1700000x5_1_0_n_n_0_1_15_wf
def scatter_S100000x5_S1700000x1_S1700000x5_1_0_0_1 : ScatterDims S100000x5 S1700000x1 S1700000x5 where
  updateWindowDims := [1]
  insertedWindowDims := [0]
  scatterDimsToOperandDims := [0]
  indexVectorDim := 1
  wf := scatter_S100000x5_S1700000x1_S1700000x5_1_0_0_1_wf
def dot_S5000x5_S5x2_S5000x2_1_0_0_1_n_n : DotDims S5000x5 S5x2 S5000x2 where
  lhsContracting := [1]
  rhsContracting := [0]
  lhsNonContracting := [0]
  rhsNonContracting := [1]
  lhsBatch := []
  rhsBatch := []
  wf := dot_S5000x5_S5x2_S5000x2_1_0_0_1_n_n_wf

abbrev win0_0 : Pipeline.Window sig grid0 :=
  Pipeline.Window.ofSpec (Memref.whole main_arg0) S5000x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S30x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x20.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x20.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S10x5.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x5.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S5x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x30 : Shape := ⟨2, ![100000, 30]⟩
abbrev S2x1600000 : Shape := ⟨2, ![2, 1600000]⟩
abbrev S30x20 : Shape := ⟨2, ![30, 20]⟩
abbrev S20 : Shape := ⟨1, ![20]⟩
abbrev S10x5 : Shape := ⟨2, ![10, 5]⟩
abbrev S5 : Shape := ⟨1, ![5]⟩
abbrev S5x2 : Shape := ⟨2, ![5, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x20 : Shape := ⟨2, ![100000, 20]⟩
abbrev S1700000x20 : Shape := ⟨2, ![1700000, 20]⟩
abbrev S1x20 : Shape := ⟨2, ![1, 20]⟩
abbrev S100000x10x2 : Shape := ⟨3, ![100000, 10, 2]⟩
abbrev S100000x10 : Shape := ⟨2, ![100000, 10]⟩
abbrev S100000x5 : Shape := ⟨2, ![100000, 5]⟩
abbrev S1700000x5 : Shape := ⟨2, ![1700000, 5]⟩
abbrev S1x5 : Shape := ⟨2, ![1, 5]⟩
abbrev S100000x2 : Shape := ⟨2, ![100000, 2]⟩
abbrev S1x2 : Shape := ⟨2, ![1, 2]⟩

abbrev nBuf : Space → Nat
  | .hbm => 135
  | .vmem => 0
  | .smem => 0
  | _ => 0

abbrev hbmTy0_0 (i : Nat) : BufTy := match i % 128 with
  | 0 => ⟨S100000x30, .f32⟩
  | 1 => ⟨S2x1600000, .i32⟩
  | 2 => ⟨S30x20, .f32⟩
  | 3 => ⟨S20, .f32⟩
  | 4 => ⟨S10x5, .f32⟩
  | 5 => ⟨S5, .f32⟩
  | 6 => ⟨S5x2, .f32⟩
  | 7 => ⟨S2, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S100000, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S100000x20, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x20, .f32⟩
  | 51 => ⟨S1700000x1, .f32⟩
  | 52 => ⟨S1700000x20, .f32⟩
  | 53 => ⟨S1700000x20, .f32⟩
  | 54 => ⟨S_, .f32⟩
  | 55 => ⟨S100000x20, .f32⟩
  | 56 => ⟨S1700000x1, .i32⟩
  | 57 => ⟨S100000x20, .f32⟩
  | 58 => ⟨S1x20, .f32⟩
  | 59 => ⟨S100000x20, .f32⟩
  | 60 => ⟨S100000x20, .f32⟩
  | 61 => ⟨S_, .f32⟩
  | 62 => ⟨S100000x20, .f32⟩
  | 63 => ⟨S100000x20, .i1⟩
  | 64 => ⟨S_, .f32⟩
  | 65 => ⟨S100000x20, .f32⟩
  | 66 => ⟨S100000x20, .f32⟩
  | 67 => ⟨S100000x20, .f32⟩
  | 68 => ⟨S100000x10x2, .f32⟩
  | 69 => ⟨S_, .f32⟩
  | 70 => ⟨S100000x10, .f32⟩
  | 71 => ⟨S100000, .i32⟩
  | 72 => ⟨S1x1600000, .i32⟩
  | 73 => ⟨S1600000, .i32⟩
  | 74 => ⟨S1700000, .i32⟩
  | 75 => ⟨S1x1600000, .i32⟩
  | 76 => ⟨S1600000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S100000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S100000x5, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x5, .f32⟩
  | 114 => ⟨S1700000x1, .f32⟩
  | 115 => ⟨S1700000x5, .f32⟩
  | 116 => ⟨S1700000x5, .f32⟩
  | 117 => ⟨S_, .f32⟩
  | 118 => ⟨S100000x5, .f32⟩
  | 119 => ⟨S1700000x1, .i32⟩
  | 120 => ⟨S100000x5, .f32⟩
  | 121 => ⟨S1x5, .f32⟩
  | 122 => ⟨S100000x5, .f32⟩
  | 123 => ⟨S100000x5, .f32⟩
  | 124 => ⟨S_, .f32⟩
  | 125 => ⟨S100000x5, .f32⟩
  | 126 => ⟨S100000x5, .i1⟩
  | 127 => ⟨S_, .f32⟩
  | _ => ⟨S100000x30, .f32⟩

abbrev hbmTy0_1 (i : Nat) : BufTy := match i % 128 with
  | 0 => ⟨S100000x5, .f32⟩
  | 1 => ⟨S100000x5, .f32⟩
  | 2 => ⟨S100000x5, .f32⟩
  | 3 => ⟨S100000x2, .f32⟩
  | 4 => ⟨S1x2, .f32⟩
  | 5 => ⟨S100000x2, .f32⟩
  | 6 => ⟨S100000x2, .f32⟩
  | _ => ⟨S100000x30, .f32⟩

abbrev hbmTy (i : Nat) : BufTy := match i / 128 with
  | 0 => hbmTy0_0 i
  | 1 => hbmTy0_1 i
  | _ => ⟨S100000x30, .f32⟩

abbrev bufTy : (tb : Table) → Fin (tcTables nBuf tb) → BufTy
  | .hbm, ⟨i, _⟩ => hbmTy i
  | _, _ => ⟨S100000x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_12 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_c_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_call1_cst : Ref sig .tc := ⟨.hbm, 124, rfl⟩
abbrev main_call1_v0 : Ref sig .tc := ⟨.hbm, 125, rfl⟩
abbrev main_call1_v1 : Ref sig .tc := ⟨.hbm, 126, rfl⟩
abbrev main_call1_cst_0 : Ref sig .tc := ⟨.hbm, 127, rfl⟩
abbrev main_call1_v2 : Ref sig .tc := ⟨.hbm, 128, rfl⟩
abbrev main_call1_v3 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x20_0_1 : S1700000x1.BroadcastsInDim S1700000x20 (![0, 1] : Fin 2 → Fin S1700000x20.rank)
  bcast_S_S100000x20 : S_.BroadcastsInDim S100000x20 (![] : Fin 0 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  shapeCasts_S100000x20_S100000x10x2 : S100000x20.ShapeCasts S100000x10x2
  reducesTo_S100000x10x2_S100000x10_d2 : S100000x10x2.ReducesTo [2] S100000x10
  h_S_ : 0 < S_.numel
  bcast_S1700000x1_S1700000x5_0_1 : S1700000x1.BroadcastsInDim S1700000x5 (![0, 1] : Fin 2 → Fin S1700000x5.rank)
  bcast_S_S100000x5 : S_.BroadcastsInDim S100000x5 (![] : Fin 0 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x30_S30x20_S100000x20_1_0_0_1_n_n_wf : DotDims.WF S100000x30 S30x20 S100000x20 [1] [0] [0] [1] [] []
  gather_S100000x20_S1700000x1_S1700000x20_1_0_n_n_0_1_120_wf : GatherDims.WF S100000x20 S1700000x1 S1700000x20 [1] [0] [] [0] [] 1 ![1, 20]
  scatter_S100000x20_S1700000x1_S1700000x20_1_0_0_1_wf : ScatterDims.WF S100000x20 S1700000x1 S1700000x20 [1] [0] [0] 1
  dot_S100000x10_S10x5_S100000x5_1_0_0_1_n_n_wf : DotDims.WF S100000x10 S10x5 S100000x5 [1] [0] [0] [1] [] []
  gather_S100000x5_S1700000x1_S1700000x5_1_0_n_n_0_1_15_wf : GatherDims.WF S100000x5 S1700000x1 S1700000x5 [1] [0] [] [0] [] 1 ![1, 5]
  scatter_S100000x5_S1700000x1_S1700000x5_1_0_0_1_wf : ScatterDims.WF S100000x5 S1700000x1 S1700000x5 [1] [0] [0] 1
  dot_S100000x5_S5x2_S100000x2_1_0_0_1_n_n_wf : DotDims.WF S100000x5 S5x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x30_S30x20_S100000x20_1_0_0_1_n_n : DotDims S100000x30 S30x20 S100000x20 where
  lhsContracting := [1]
  rhsContracting := [0]
  lhsNonContracting := [0]
  rhsNonContracting := [1]
  lhsBatch := []
  rhsBatch := []
  wf := dot_S100000x30_S30x20_S100000x20_1_0_0_1_n_n_wf
def gather_S100000x20_S1700000x1_S1700000x20_1_0_n_n_0_1_120 : GatherDims S100000x20 S1700000x1 S1700000x20 where
  offsetDims := [1]
  collapsedSliceDims := [0]
  operandBatchingDims := []
  startIndicesBatchingDims := []
  startIndexMap := [0]
  indexVectorDim := 1
  sliceSizes := ![1, 20]
  wf := gather_S100000x20_S1700000x1_S1700000x20_1_0_n_n_0_1_120_wf
def scatter_S100000x20_S1700000x1_S1700000x20_1_0_0_1 : ScatterDims S100000x20 S1700000x1 S1700000x20 where
  updateWindowDims := [1]
  insertedWindowDims := [0]
  scatterDimsToOperandDims := [0]
  indexVectorDim := 1
  wf := scatter_S100000x20_S1700000x1_S1700000x20_1_0_0_1_wf
def dot_S100000x10_S10x5_S100000x5_1_0_0_1_n_n : DotDims S100000x10 S10x5 S100000x5 where
  lhsContracting := [1]
  rhsContracting := [0]
  lhsNonContracting := [0]
  rhsNonContracting := [1]
  lhsBatch := []
  rhsBatch := []
  wf := dot_S100000x10_S10x5_S100000x5_1_0_0_1_n_n_wf
def gather_S100000x5_S1700000x1_S1700000x5_1_0_n_n_0_1_15 : GatherDims S100000x5 S1700000x1 S1700000x5 where
  offsetDims := [1]
  collapsedSliceDims := [0]
  operandBatchingDims := []
  startIndicesBatchingDims := []
  startIndexMap := [0]
  indexVectorDim := 1
  sliceSizes := ![1, 5]
  wf := gather_S100000x5_S1700000x1_S1700000x5_1_0_n_n_0_1_15_wf
def scatter_S100000x5_S1700000x1_S1700000x5_1_0_0_1 : ScatterDims S100000x5 S1700000x1 S1700000x5 where
  updateWindowDims := [1]
  insertedWindowDims := [0]
  scatterDimsToOperandDims := [0]
  indexVectorDim := 1
  wf := scatter_S100000x5_S1700000x1_S1700000x5_1_0_0_1_wf
def dot_S100000x5_S5x2_S100000x2_1_0_0_1_n_n : DotDims S100000x5 S5x2 S100000x2 where
  lhsContracting := [1]
  rhsContracting := [0]
  lhsNonContracting := [0]
  rhsNonContracting := [1]
  lhsBatch := []
  rhsBatch := []
  wf := dot_S100000x5_S5x2_S100000x2_1_0_0_1_n_n_wf

class Facts : Prop extends Facts₀ where

variable [Facts]
-- ==== Proof.Stages.lean ====
/-
  The dense and the irregular stages of the graph-convolution network, as whole-array functions.

  Both programs compute, from node features x [100000,30], an edge list e [2,1600000] and the weights,

      out = D2 (agg5 (D1 (agg20 (D0 x W1) e) b1 W2) e) b2 Wl bl

  where D0 is a matrix product, D1 is bias + leaky-relu + max over adjacent feature pairs + a matrix product,
  D2 is bias + leaky-relu + a matrix product + bias, and agg20 / agg5 are the normalised neighbour sums
  (gather the source rows, scale by 1/sqrt(deg src * deg dst), scatter-add into the destination rows, self
  loops appended to the edge list).  The irregular stages are kept as the host operations that state them;
  nothing in the certificate looks inside a gather or a scatter-add.
-/
import proofs.«167082_j19533511262573_2_alg».proof.ReferenceIdeal
import proofs.«167082_j19533511262573_2_alg».proof.Proof.Gen.ReferenceIdeal
import Idealize.ShloMosaic.PureOps

noncomputable section

namespace Cert.Stages

open Idealize.ShloMosaic Cert.ReferenceIdeal Cert.ReferenceIdeal.Facts₀

variable {F : FTy → Type} [FloatOps F]

/-! ## The edge list with the self loops appended -/

/-- Row `r` of the edge list (0: sources, 1: destinations) followed by 0, 1, …, 99999. -/
def srcFull (e : Vec F S2x1600000 .i32) : Vec F S1700000 .i32 :=
  concatenate S1700000 0
    [⟨S1600000, shapeCast S1600000 (extractStridedSlice S1x1600000 ![0, 0] e slices_S2x1600000_S1x1600000_0_0) shapeCasts_S1x1600000_S1600000⟩,
     ⟨S100000, iotaInDim S100000 32 0⟩] concatenates_S1600000_S100000_S1700000_d0

def dstFull (e : Vec F S2x1600000 .i32) : Vec F S1700000 .i32 :=
  concatenate S1700000 0
    [⟨S1600000, shapeCast S1600000 (extractStridedSlice S1x1600000 ![1, 0] e slices_S2x1600000_S1x1600000_1_0) shapeCasts_S1x1600000_S1600000⟩,
     ⟨S100000, iotaInDim S100000 32 0⟩] concatenates_S1600000_S100000_S1700000_d0

/-- A negative node index counts from the end: i ↦ i + 100000 when i < 0. -/
def wrap (i : Vec F S1700000 .i32) : Vec F S1700000 .i32 :=
  select (cmpi .slt i (broadcastInDim S1700000 ![] bcast_S_S1700000 (constantI S_ 32 0#32)))
    (addi i (broadcastInDim S1700000 ![] bcast_S_S1700000 (constantI S_ 32 100000#32))) i

/-- The in-degree of every node (self loop included): ones scattered by destination. -/
def deg (df : Vec F S1700000 .i32) : FVec F S100000 .f32 :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 df)
    (broadcastInDim S1700000 ![] bcast_S_S1700000 (constant (F := F) S_ .f32 0x3F800000#32))

/-- The edge weight 1/sqrt(deg src) · 1/sqrt(deg dst). -/
def normG (sf df : Vec F S1700000 .i32) : FVec F S1700000 .f32 :=
  mulf (Host.gather gather_S100000_S1700000x1_S1700000_n_0_n_n_0_1_1 (Host.rsqrt (deg (F := F) df))
          (broadcastInDim S1700000x1 ![0] bcast_S1700000_S1700000x1_0 (wrap (F := F) sf)))
       (Host.gather gather_S100000_S1700000x1_S1700000_n_0_n_n_0_1_1 (Host.rsqrt (deg (F := F) df))
          (broadcastInDim S1700000x1 ![0] bcast_S1700000_S1700000x1_0 (wrap (F := F) df)))

def normOf (e : Vec F S2x1600000 .i32) : FVec F S1700000 .f32 := normG (F := F) (srcFull (F := F) e) (dstFull (F := F) e)

/-! ## The normalised neighbour sums -/

/-- Rows of `h` gathered by source, scaled by the edge weight, summed by destination (20 features). -/
def agg20G (h : FVec F S100000x20 .f32) (sf df : Vec F S1700000 .i32) (nm : FVec F S1700000 .f32) : FVec F S100000x20 .f32 :=
  Host.scatterAdd scatter_S100000x20_S1700000x1_S1700000x20_1_0_0_1
    (broadcastInDim S100000x20 ![] bcast_S_S100000x20 (constant (F := F) S_ .f32 0x00000000#32))
    (broadcastInDim S1700000x1 ![0] bcast_S1700000_S1700000x1_0 df)
    (mulf (Host.gather gather_S100000x20_S1700000x1_S1700000x20_1_0_n_n_0_1_120 h
            (broadcastInDim S1700000x1 ![0] bcast_S1700000_S1700000x1_0 (wrap (F := F) sf)))
          (broadcastInDim S1700000x20 ![0, 1] bcast_S1700000x1_S1700000x20_0_1
            (broadcastInDim S1700000x1 ![0] bcast_S1700000_S1700000x1_0 nm)))

/-- The same over 5 features. -/
def agg5G (h : FVec F S100000x5 .f32) (sf df : Vec F S1700000 .i32) (nm : FVec F S1700000 .f32) : FVec F S100000x5 .f32 :=
  Host.scatterAdd scatter_S100000x5_S1700000x1_S1700000x5_1_0_0_1
    (broadcastInDim S100000x5 ![] bcast_S_S100000x5 (constant (F := F) S_ .f32 0x00000000#32))
    (broadcastInDim S1700000x1 ![0] bcast_S1700000_S1700000x1_0 df)
    (mulf (Host.gather gather_S100000x5_S1700000x1_S1700000x5_1_0_n_n_0_1_15 h
            (broadcastInDim S1700000x1 ![0] bcast_S1700000_S1700000x1_0 (wrap (F := F) sf)))
          (broadcastInDim S1700000x5 ![0, 1] bcast_S1700000x1_S1700000x5_0_1
            (broadcastInDim S1700000x1 ![0] bcast_S1700000_S1700000x1_0 nm)))

def agg20 (h : FVec F S100000x20 .f32) (e : Vec F S2x1600000 .i32) : FVec F S100000x20 .f32 :=
  agg20G h (srcFull (F := F) e) (dstFull (F := F) e) (normOf (F := F) e)
def agg5 (h : FVec F S100000x5 .f32) (e : Vec F S2x1600000 .i32) : FVec F S100000x5 .f32 :=
  agg5G h (srcFull (F := F) e) (dstFull (F := F) e) (normOf (F := F) e)

/-! ## The dense stages -/

/-- a ↦ a where a ≥ 0, 0.01·a elsewhere (the literal is the float nearest 0.01), over [100000,20]. -/
def lrelu20 (a : FVec F S100000x20 .f32) : FVec F S100000x20 .f32 :=
  select (cmpf .oge a (broadcastInDim S100000x20 ![] bcast_S_S100000x20 (constant (F := F) S_ .f32 0x00000000#32))) a
    (mulf (broadcastInDim S100000x20 ![] bcast_S_S100000x20 (constant (F := F) S_ .f32 0x3C23D70A#32)) a)

/-- The same over [100000,5]. -/
def lrelu5 (a : FVec F S100000x5 .f32) : FVec F S100000x5 .f32 :=
  select (cmpf .oge a (broadcastInDim S100000x5 ![] bcast_S_S100000x5 (constant (F := F) S_ .f32 0x00000000#32))) a
    (mulf (broadcastInDim S100000x5 ![] bcast_S_S100000x5 (constant (F := F) S_ .f32 0x3C23D70A#32)) a)

/-- The first projection: x · W1. -/
def D0 (x : FVec F S100000x30 .f32) (W1 : FVec F S30x20 .f32) : FVec F S100000x20 .f32 :=
  Host.dotGeneral dot_S100000x30_S30x20_S100000x20_1_0_0_1_n_n none x W1

/-- Bias (a [1,20] row), leaky-relu, the maximum of each adjacent pair of the 20 features, then · W2. -/
def D1 (a : FVec F S100000x20 .f32) (b1r : FVec F S1x20 .f32) (W2 : FVec F S10x5 .f32) : FVec F S100000x5 .f32 :=
  Host.dotGeneral dot_S100000x10_S10x5_S100000x5_1_0_0_1_n_n none
    (Host.reduce FloatOps.maximumf
      (shapeCast S100000x10x2
        (lrelu20 (F := F) (addf a (broadcastInDim S100000x20 ![0, 1] bcast_S1x20_S100000x20_0_1 b1r)))
        shapeCasts_S100000x20_S100000x10x2)
      (constant (F := F) S_ .f32 0xFF800000#32) reducesTo_S100000x10x2_S100000x10_d2 h_S_)
    W2

/-- Bias (a [1,5] row), leaky-relu, · Wl, plus the output bias (a [1,2] row). -/
def D2 (a : FVec F S100000x5 .f32) (b2r : FVec F S1x5 .f32) (Wl : FVec F S5x2 .f32) (blr : FVec F S1x2 .f32) : FVec F S100000x2 .f32 :=
  addf (Host.dotGeneral dot_S100000x5_S5x2_S100000x2_1_0_0_1_n_n none
          (lrelu5 (F := F) (addf a (broadcastInDim S100000x5 ![0, 1] bcast_S1x5_S100000x5_0_1 b2r))) Wl)
       (broadcastInDim S100000x2 ![0, 1] bcast_S1x2_S100000x2_0_1 blr)

/-- A bias vector as a one-row matrix. -/
def row20 (b : FVec F S20 .f32) : FVec F S1x20 .f32 := broadcastInDim S1x20 ![1] bcast_S20_S1x20_1 b
def row5 (b : FVec F S5 .f32) : FVec F S1x5 .f32 := broadcastInDim S1x5 ![1] bcast_S5_S1x5_1 b
def row2 (b : FVec F S2 .f32) : FVec F S1x2 .f32 := broadcastInDim S1x2 ![1] bcast_S2_S1x2_1 b

/-- The network, from one edge list used throughout. -/
def net (x : FVec F S100000x30 .f32) (e : Vec F S2x1600000 .i32) (W1 : FVec F S30x20 .f32) (b1 : FVec F S20 .f32)
    (W2 : FVec F S10x5 .f32) (b2 : FVec F S5 .f32) (Wl : FVec F S5x2 .f32) (bl : FVec F S2 .f32) : FVec F S100000x2 .f32 :=
  D2 (agg5 (D1 (agg20 (D0 x W1) e) (row20 b1) W2) e) (row5 b2) Wl (row2 bl)

end Cert.Stages

end
-- ==== Proof.KRun.lean ====
/-
  The idealized kernel program's run with its result kept.

  @main is three pipelined regions among stretches of host operations.  Its frame run walks the buffer contents
  from the launch memory through every stretch and every region (the boundary contents `W0 … W6` of the frame
  module) and ends with every unscoped buffer holding the last boundary's contents.  The frame claim forgets all
  of them but the arguments; here the result buffer is read as well: it ends at `W6`'s value for it, which the
  value modules then open stage by stage.
-/
import proofs.«167082_j19533511262573_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates without a fault; the result buffer ends at the last
    boundary's contents and the argument arrays end as launched. -/
theorem run_main : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.LibRowCast.lean ====
/-
  A vector as a one-row matrix.

  A length-`a` vector becomes an `[1, a]` matrix in two ways that programs use interchangeably: a reshape (row-major
  order kept) and a `broadcast_in_dim` that maps the vector's axis to the matrix's second axis, the new leading axis
  having extent one.  Both hold the vector's entry `i` at `(0, i)`, so they are the same array.
-/
import Idealize.ShloMosaic.Lib.ValueLayout

namespace Cert.Lib.RowCast

open Idealize.ShloMosaic Idealize.ShloMosaic.ValueIdx

/-- A length-`a` vector reshaped to `[1, a]` is the vector broadcast along a new leading axis of extent one: both
    hold the vector's entry `i` at `(0, i)`.  (For `a = 1` the broadcast's reading of a unit axis differs in form; the
    statement is for `a ≠ 1`.) -/
theorem shapeCast_row_eq_broadcastInDim {α : Type} {a : ℕ} (ha : a ≠ 1) (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  refine (shapeCast_a_1a_apply x h u i).trans ?_
  refine (broadcastInDim_apply (![1] : Fin 1 → Fin 2) h' x (ix2 u i) (ix1 i) (fun d => ?_)).symm
  match d with
  | ⟨0, _⟩ =>
    show i.val = if a = 1 then 0 else i.val
    rw [if_neg ha]

end Cert.Lib.RowCast
-- ==== Proof.KChain.lean ====
/-
  The idealized kernel program's result, stage by stage.

  The frame module names the buffer contents at the seven boundaries of @main: `W0` at launch, `W1` after the first
  stretch of host operations (the edge list with self loops, the degrees, the edge weights), `W2` after region 0
  (the first projection), `W3` after the second stretch (the first neighbour sum, the bias row), `W4` after region 1
  (bias, leaky-relu, pair maximum, second projection), `W5` after the third stretch (the second neighbour sum, two bias
  rows) and `W6` after region 2.  Each boundary is read here at the few buffers the next stage takes: a buffer that a
  stretch does not write keeps its contents, a buffer that is no window of a region keeps its contents, a stretch's
  result is its operations' term of what the stretch found, and a region's output array is the whole-array stage of
  its input arrays — the three facts `h0 h1 h2`, proved separately from the regions' bodies.  Composed, the result
  buffer holds the network of the launch arguments, the bias vectors entering as one-row matrices by a reshape.
-/
import proofs.«167082_j19533511262573_2_alg».proof.Proof.Gen.KernelIdeal.Frame
import proofs.«167082_j19533511262573_2_alg».proof.Proof.Stages
import Idealize.ShloMosaic.Lib.StableHlo.Run
import proofs.«167082_j19533511262573_2_alg».proof.Proof.LibRowCast
import Idealize.ShloMosaic.PureOps.Ideal

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- A buffer that no operation of a stretch writes keeps its contents through the stretch. -/
macro "stretch_keeps" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## After the first stretch: the arguments as launched, the edge list, the edge weights -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0); stretch_keeps
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2); stretch_keeps
theorem W1_arg3 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3); stretch_keeps
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4); stretch_keeps
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5); stretch_keeps
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6); stretch_keeps
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7); stretch_keeps

/-- The sources, self loops appended. -/
theorem W1_v5 (c : Dev nD) : W1 m ρ c (Proc.devRef .tc main_v5) = Cert.Stages.srcFull (F := Ideal) (m ((c : Thread nD τ).loc main_arg1)) := by
  show StableHlo.after hostOps0 (W0 m ρ c) (Proc.devRef .tc main_v5) = _
  after_results_simp
  rfl
/-- The destinations, self loops appended. -/
theorem W1_v6 (c : Dev nD) : W1 m ρ c (Proc.devRef .tc main_v6) = Cert.Stages.dstFull (F := Ideal) (m ((c : Thread nD τ).loc main_arg1)) := by
  show StableHlo.after hostOps0 (W0 m ρ c) (Proc.devRef .tc main_v6) = _
  after_results_simp
  rfl
/-- The edge weights. -/
theorem W1_v26 (c : Dev nD) : W1 m ρ c (Proc.devRef .tc main_v26) = Cert.Stages.normOf (F := Ideal) (m ((c : Thread nD τ).loc main_arg1)) := by
  show StableHlo.after hostOps0 (W0 m ρ c) (Proc.devRef .tc main_v26) = _
  after_results_simp
  rfl

/-! ## After region 0 -/

theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_v5 (c : Dev nD) : W2 m ρ c (Proc.devRef .tc main_v5) = Cert.Stages.srcFull (F := Ideal) (m ((c : Thread nD τ).loc main_arg1)) :=
  (W2_of_ne m ρ c main_v5 (by decide)).trans (W1_v5 m ρ c)
theorem W2_v6 (c : Dev nD) : W2 m ρ c (Proc.devRef .tc main_v6) = Cert.Stages.dstFull (F := Ideal) (m ((c : Thread nD τ).loc main_arg1)) :=
  (W2_of_ne m ρ c main_v6 (by decide)).trans (W1_v6 m ρ c)
theorem W2_v26 (c : Dev nD) : W2 m ρ c (Proc.devRef .tc main_v26) = Cert.Stages.normOf (F := Ideal) (m ((c : Thread nD τ).loc main_arg1)) :=
  (W2_of_ne m ρ c main_v26 (by decide)).trans (W1_v26 m ρ c)

/-! ## The regions' values, taken as given here

Each region's output array after the region is the whole-array stage of the arrays its input windows stage, whatever
the contents `V` the region is entered with. -/

variable
  (h0 : ∀ (V : (c : Dev nD) → (b : Ref sig .tc) → Buf (Elt Ideal) ((c : Thread nD τ).loc b)) (c : Dev nD),
      (dat0 (F := Ideal) V c).arrAt 2 cfg0.N = Cert.Stages.D0 (F := Ideal) (V c main_arg0) (V c main_arg2))
  (h1 : ∀ (V : (c : Dev nD) → (b : Ref sig .tc) → Buf (Elt Ideal) ((c : Thread nD τ).loc b)) (c : Dev nD),
      (dat1 (F := Ideal) V c).arrAt 3 cfg1.N = Cert.Stages.D1 (F := Ideal) (V c main_v40) (V c main_v41) (V c main_arg4))
  (h2 : ∀ (V : (c : Dev nD) → (b : Ref sig .tc) → Buf (Elt Ideal) ((c : Thread nD τ).loc b)) (c : Dev nD),
      (dat2 (F := Ideal) V c).arrAt 4 cfg2.N = Cert.Stages.D2 (F := Ideal) (V c main_v55) (V c main_v56) (V c main_arg6) (V c main_v57))

include h0 in
/-- Region 0 leaves the first projection of the launch features. -/
theorem W2_v27 (c : Dev nD) : W2 m ρ c (Proc.devRef .tc main_v27) = Cert.Stages.D0 (F := Ideal) (m ((c : Thread nD τ).loc main_arg0)) (m ((c : Thread nD τ).loc main_arg2)) :=
  (W2_arr m ρ c 2).trans ((h0 (V1 m ρ) c).trans
    (congrArg₂ (Cert.Stages.D0 (F := Ideal)) (W1_arg0 m ρ c) (W1_arg2 m ρ c)))

/-! ## After the second stretch -/

include h0 in
/-- The first neighbour sum. -/
theorem W3_v40 (c : Dev nD) : W3 m ρ c (Proc.devRef .tc main_v40) = Cert.Stages.agg20 (F := Ideal) (Cert.Stages.D0 (F := Ideal) (m ((c : Thread nD τ).loc main_arg0)) (m ((c : Thread nD τ).loc main_arg2))) (m ((c : Thread nD τ).loc main_arg1)) := by
  have e : StableHlo.after hostOps1 (W2 m ρ c) (Proc.devRef .tc main_v40)
      = Cert.Stages.agg20G (F := Ideal) (W2 m ρ c (Proc.devRef .tc main_v27)) (W2 m ρ c (Proc.devRef .tc main_v5))
          (W2 m ρ c (Proc.devRef .tc main_v6)) (W2 m ρ c (Proc.devRef .tc main_v26)) := by
    after_results_simp
    rfl
  refine e.trans ?_
  rw [W2_v27 m ρ h0 c, W2_v5 m ρ c, W2_v6 m ρ c, W2_v26 m ρ c]
  rfl

/-- The first bias as a one-row matrix. -/
theorem W3_v41 (c : Dev nD) : W3 m ρ c (Proc.devRef .tc main_v41) = Cert.Stages.row20 (F := Ideal) (m ((c : Thread nD τ).loc main_arg3)) := by
  have e : StableHlo.after hostOps1 (W2 m ρ c) (Proc.devRef .tc main_v41)
      = shapeCast S1x20 (W2 m ρ c (Proc.devRef .tc main_arg3)) Cert.KernelIdeal.Facts₀.shapeCasts_S20_S1x20 := by
    after_results_simp
    rfl
  refine e.trans ?_
  rw [W2_arg3 m ρ c]
  exact Cert.Lib.RowCast.shapeCast_row_eq_broadcastInDim (by decide) _ _ _

theorem W3_arg4 (c : Dev nD) : W3 m ρ c (Proc.devRef .tc main_arg4) = m ((c : Thread nD τ).loc main_arg4) := by
  have e : StableHlo.after hostOps1 (W2 m ρ c) (Proc.devRef .tc main_arg4) = W2 m ρ c (Proc.devRef .tc main_arg4) := by stretch_keeps
  exact e.trans (W2_arg4 m ρ c)
theorem W3_arg5 (c : Dev nD) : W3 m ρ c (Proc.devRef .tc main_arg5) = m ((c : Thread nD τ).loc main_arg5) := by
  have e : StableHlo.after hostOps1 (W2 m ρ c) (Proc.devRef .tc main_arg5) = W2 m ρ c (Proc.devRef .tc main_arg5) := by stretch_keeps
  exact e.trans (W2_arg5 m ρ c)
theorem W3_arg6 (c : Dev nD) : W3 m ρ c (Proc.devRef .tc main_arg6) = m ((c : Thread nD τ).loc main_arg6) := by
  have e : StableHlo.after hostOps1 (W2 m ρ c) (Proc.devRef .tc main_arg6) = W2 m ρ c (Proc.devRef .tc main_arg6) := by stretch_keeps
  exact e.trans (W2_arg6 m ρ c)
theorem W3_arg7 (c : Dev nD) : W3 m ρ c (Proc.devRef .tc main_arg7) = m ((c : Thread nD τ).loc main_arg7) := by
  have e : StableHlo.after hostOps1 (W2 m ρ c) (Proc.devRef .tc main_arg7) = W2 m ρ c (Proc.devRef .tc main_arg7) := by stretch_keeps
  exact e.trans (W2_arg7 m ρ c)
theorem W3_v5 (c : Dev nD) : W3 m ρ c (Proc.devRef .tc main_v5) = Cert.Stages.srcFull (F := Ideal) (m ((c : Thread nD τ).loc main_arg1)) := by
  have e : StableHlo.after hostOps1 (W2 m ρ c) (Proc.devRef .tc main_v5) = W2 m ρ c (Proc.devRef .tc main_v5) := by stretch_keeps
  exact e.trans (W2_v5 m ρ c)
theorem W3_v6 (c : Dev nD) : W3 m ρ c (Proc.devRef .tc main_v6) = Cert.Stages.dstFull (F := Ideal) (m ((c : Thread nD τ).loc main_arg1)) := by
  have e : StableHlo.after hostOps1 (W2 m ρ c) (Proc.devRef .tc main_v6) = W2 m ρ c (Proc.devRef .tc main_v6) := by stretch_keeps
  exact e.trans (W2_v6 m ρ c)
theorem W3_v26 (c : Dev nD) : W3 m ρ c (Proc.devRef .tc main_v26) = Cert.Stages.normOf (F := Ideal) (m ((c : Thread nD τ).loc main_arg1)) := by
  have e : StableHlo.after hostOps1 (W2 m ρ c) (Proc.devRef .tc main_v26) = W2 m ρ c (Proc.devRef .tc main_v26) := by stretch_keeps
  exact e.trans (W2_v26 m ρ c)

/-! ## After region 1 -/

include h0 h1 in
/-- Region 1 leaves the second projection. -/
theorem W4_v42 (c : Dev nD) : W4 m ρ c (Proc.devRef .tc main_v42) = Cert.Stages.D1 (F := Ideal) (Cert.Stages.agg20 (F := Ideal) (Cert.Stages.D0 (F := Ideal) (m ((c : Thread nD τ).loc main_arg0)) (m ((c : Thread nD τ).loc main_arg2))) (m ((c : Thread nD τ).loc main_arg1))) (Cert.Stages.row20 (F := Ideal) (m ((c : Thread nD τ).loc main_arg3))) (m ((c : Thread nD τ).loc main_arg4)) := by
  refine (W4_arr m ρ c 3).trans ((h1 (V3 m ρ) c).trans ?_)
  show Cert.Stages.D1 (F := Ideal) (W3 m ρ c (Proc.devRef .tc main_v40)) (W3 m ρ c (Proc.devRef .tc main_v41)) (W3 m ρ c (Proc.devRef .tc main_arg4)) = _
  rw [W3_v40 m ρ h0 c, W3_v41 m ρ c, W3_arg4 m ρ c]

theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_v5 (c : Dev nD) : W4 m ρ c (Proc.devRef .tc main_v5) = Cert.Stages.srcFull (F := Ideal) (m ((c : Thread nD τ).loc main_arg1)) :=
  (W4_of_ne m ρ c main_v5 (by decide)).trans (W3_v5 m ρ c)
theorem W4_v6 (c : Dev nD) : W4 m ρ c (Proc.devRef .tc main_v6) = Cert.Stages.dstFull (F := Ideal) (m ((c : Thread nD τ).loc main_arg1)) :=
  (W4_of_ne m ρ c main_v6 (by decide)).trans (W3_v6 m ρ c)
theorem W4_v26 (c : Dev nD) : W4 m ρ c (Proc.devRef .tc main_v26) = Cert.Stages.normOf (F := Ideal) (m ((c : Thread nD τ).loc main_arg1)) :=
  (W4_of_ne m ρ c main_v26 (by decide)).trans (W3_v26 m ρ c)

/-! ## After the third stretch -/

include h0 h1 in
/-- The second neighbour sum. -/
theorem W5_v55 (c : Dev nD) : W5 m ρ c (Proc.devRef .tc main_v55) = Cert.Stages.agg5 (F := Ideal) (Cert.Stages.D1 (F := Ideal) (Cert.Stages.agg20 (F := Ideal) (Cert.Stages.D0 (F := Ideal) (m ((c : Thread nD τ).loc main_arg0)) (m ((c : Thread nD τ).loc main_arg2))) (m ((c : Thread nD τ).loc main_arg1))) (Cert.Stages.row20 (F := Ideal) (m ((c : Thread nD τ).loc main_arg3))) (m ((c : Thread nD τ).loc main_arg4))) (m ((c : Thread nD τ).loc main_arg1)) := by
  have e : StableHlo.after hostOps2 (W4 m ρ c) (Proc.devRef .tc main_v55)
      = Cert.Stages.agg5G (F := Ideal) (W4 m ρ c (Proc.devRef .tc main_v42)) (W4 m ρ c (Proc.devRef .tc main_v5))
          (W4 m ρ c (Proc.devRef .tc main_v6)) (W4 m ρ c (Proc.devRef .tc main_v26)) := by
    after_results_simp
    rfl
  refine e.trans ?_
  rw [W4_v42 m ρ h0 h1 c, W4_v5 m ρ c, W4_v6 m ρ c, W4_v26 m ρ c]
  rfl

/-- The second bias as a one-row matrix. -/
theorem W5_v56 (c : Dev nD) : W5 m ρ c (Proc.devRef .tc main_v56) = Cert.Stages.row5 (F := Ideal) (m ((c : Thread nD τ).loc main_arg5)) := by
  have e : StableHlo.after hostOps2 (W4 m ρ c) (Proc.devRef .tc main_v56)
      = shapeCast S1x5 (W4 m ρ c (Proc.devRef .tc main_arg5)) Cert.KernelIdeal.Facts₀.shapeCasts_S5_S1x5 := by
    after_results_simp
    rfl
  refine e.trans ?_
  rw [W4_arg5 m ρ c]
  exact Cert.Lib.RowCast.shapeCast_row_eq_broadcastInDim (by decide) _ _ _

/-- The output bias as a one-row matrix. -/
theorem W5_v57 (c : Dev nD) : W5 m ρ c (Proc.devRef .tc main_v57) = Cert.Stages.row2 (F := Ideal) (m ((c : Thread nD τ).loc main_arg7)) := by
  have e : StableHlo.after hostOps2 (W4 m ρ c) (Proc.devRef .tc main_v57)
      = shapeCast S1x2 (W4 m ρ c (Proc.devRef .tc main_arg7)) Cert.KernelIdeal.Facts₀.shapeCasts_S2_S1x2 := by
    after_results_simp
    rfl
  refine e.trans ?_
  rw [W4_arg7 m ρ c]
  exact Cert.Lib.RowCast.shapeCast_row_eq_broadcastInDim (by decide) _ _ _

theorem W5_arg6 (c : Dev nD) : W5 m ρ c (Proc.devRef .tc main_arg6) = m ((c : Thread nD τ).loc main_arg6) := by
  have e : StableHlo.after hostOps2 (W4 m ρ c) (Proc.devRef .tc main_arg6) = W4 m ρ c (Proc.devRef .tc main_arg6) := by stretch_keeps
  exact e.trans (W4_arg6 m ρ c)

/-! ## After region 2: the result -/

include h0 h1 h2 in
/-- The result buffer ends at the network of the launch arguments. -/
theorem out_eq (c : Dev nD) : W6 m ρ c (Proc.devRef .tc main_v58)
    = Cert.Stages.net (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  refine (W6_arr m ρ c 4).trans ((h2 (V5 m ρ) c).trans ?_)
  show Cert.Stages.D2 (F := Ideal) (W5 m ρ c (Proc.devRef .tc main_v55)) (W5 m ρ c (Proc.devRef .tc main_v56))
      (W5 m ρ c (Proc.devRef .tc main_arg6)) (W5 m ρ c (Proc.devRef .tc main_v57)) = _
  rw [W5_v55 m ρ h0 h1 c, W5_v56 m ρ c, W5_arg6 m ρ c, W5_v57 m ρ c]
  rfl

end Cert.KernelIdeal.KChain

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.Region0.lean ====
/-
  The first kernel region computes the first projection.

  The region's grid has 20 points; point t stages rows 5000 t … 5000 t + 4999 of the node features, the whole
  30 × 20 weight, and writes back rows 5000 t … 5000 t + 4999 of the result.  Its body is one matrix product of
  the staged blocks into a zero accumulator.  At the ideal instance entry (p, q) of that product is the sum over
  k of block (p, k) times weight (k, q), which is entry (5000 t + p, q) of the whole-array product x · W1; the 20
  blocks tile the 100000 rows, so the result array after the region is x · W1.
-/
import proofs.«167082_j19533511262573_2_alg».proof.Proof.Gen.KernelIdeal.Frame
import proofs.«167082_j19533511262573_2_alg».proof.Proof.Stages
import proofs.«167082_j19533511262573_2_alg».proof.Proof.LibPlainDot
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))
namespace R0

/-! ## The matrix product at an index, on both sides -/

theorem hz : (![0, 0] : Fin 2 → Nat) = fun _ => 0 := funext fun a => by fin_cases a <;> rfl

/-- The dimension numbers of the block product and of the whole-array product. -/
abbrev Dk := dot_S5000x30_S30x20_S5000x20_1_0_0_1_n_n
abbrev Dh := Cert.ReferenceIdeal.dot_S100000x30_S30x20_S100000x20_1_0_0_1_n_n

theorem k_l0 (j : S5000x20.Idx) (q : Dk.contr.Idx) : (Dk.lhsIdx j q 0).val = (j 0).val := by
  simp [DotDims.lhsIdx, Dk, dot_S5000x30_S30x20_S5000x20_1_0_0_1_n_n]; rfl
theorem k_l1 (j : S5000x20.Idx) (q : Dk.contr.Idx) : (Dk.lhsIdx j q 1).val = (q ⟨0, by decide⟩).val := by
  simp [DotDims.lhsIdx, Dk, dot_S5000x30_S30x20_S5000x20_1_0_0_1_n_n]; rfl
theorem k_r0 (j : S5000x20.Idx) (q : Dk.contr.Idx) : (Dk.rhsIdx j q 0).val = (q ⟨0, by decide⟩).val := by
  simp [DotDims.rhsIdx, Dk, dot_S5000x30_S30x20_S5000x20_1_0_0_1_n_n]; rfl
theorem k_r1 (j : S5000x20.Idx) (q : Dk.contr.Idx) : (Dk.rhsIdx j q 1).val = (j 1).val := by
  simp [DotDims.rhsIdx, Dk, dot_S5000x30_S30x20_S5000x20_1_0_0_1_n_n]; rfl

theorem h_l0 (j : Cert.ReferenceIdeal.S100000x20.Idx) (q : Dh.contr.Idx) : (Dh.lhsIdx j q 0).val = (j 0).val := by
  simp [DotDims.lhsIdx, Dh, Cert.ReferenceIdeal.dot_S100000x30_S30x20_S100000x20_1_0_0_1_n_n]; rfl
theorem h_l1 (j : Cert.ReferenceIdeal.S100000x20.Idx) (q : Dh.contr.Idx) : (Dh.lhsIdx j q 1).val = (q ⟨0, by decide⟩).val := by
  simp [DotDims.lhsIdx, Dh, Cert.ReferenceIdeal.dot_S100000x30_S30x20_S100000x20_1_0_0_1_n_n]; rfl
theorem h_r0 (j : Cert.ReferenceIdeal.S100000x20.Idx) (q : Dh.contr.Idx) : (Dh.rhsIdx j q 0).val = (q ⟨0, by decide⟩).val := by
  simp [DotDims.rhsIdx, Dh, Cert.ReferenceIdeal.dot_S100000x30_S30x20_S100000x20_1_0_0_1_n_n]; rfl
theorem h_r1 (j : Cert.ReferenceIdeal.S100000x20.Idx) (q : Dh.contr.Idx) : (Dh.rhsIdx j q 1).val = (j 1).val := by
  simp [DotDims.rhsIdx, Dh, Cert.ReferenceIdeal.dot_S100000x30_S30x20_S100000x20_1_0_0_1_n_n]; rfl

/-- The body's payload at an index of the 5000-row block: row of the left block times column of the right operand. -/
theorem pay0_apply (x0 : Vec Ideal S5000x30 .f32) (x1 : Vec Ideal S30x20 .f32) (j : S5000x20.Idx) :
    k0_pay1 x0 x1 j = ∑ k : Fin 30, x0 (ix2 (j 0) k) * x1 (ix2 k (j 1)) := by
  unfold k0_pay1
  exact Cert.Lib.PlainDot.matmul_zero_apply Dk (by decide) (by decide) k_l0 k_l1 k_r0 k_r1 none _ _ j

/-- The first projection at an index of the array. -/
theorem D0_apply (x : FVec Ideal Cert.ReferenceIdeal.S100000x30 .f32) (W : FVec Ideal Cert.ReferenceIdeal.S30x20 .f32)
    (i : Cert.ReferenceIdeal.S100000x20.Idx) :
    Cert.Stages.D0 (F := Ideal) x W i = ∑ k : Fin 30, x (ix2 (i 0) k) * W (ix2 k (i 1)) := by
  unfold Cert.Stages.D0
  exact Cert.Lib.PlainDot.dotGeneral_apply Dh (by decide) (by decide) h_l0 h_l1 h_r0 h_r1 none .single x W i

/-! ## From blocks to the array -/

/-- The printed index maps over the grid: the row-block windows sit at block (t, 0), the weight at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000 t … 5000 t + 4999` of the array. -/
theorem iblk_x_apply (c : Dev nD) (t : Fin cfg0.N) (p : Fin 5000) (k : Fin 30) (r : Fin 100000)
    (hr : r.val = 5000 * t.val + p.val) :
    (iblk0 V c 0 t : Vec Ideal S5000x30 .f32) (ix2 p k) = (V c main_arg0 : S100000x30.Idx → Elt Ideal .f32) (ix2 r k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 30 + 1 * k.val = k.val; rw [e1]; omega

/-- The weight's block at every point is the whole array. -/
theorem iblk_w_apply (c : Dev nD) (t : Fin cfg0.N) (k : Fin 30) (q : Fin 20) :
    (iblk0 V c 1 t : Vec Ideal S30x20 .f32) (ix2 k q) = (V c main_arg2 : S30x20.Idx → Elt Ideal .f32) (ix2 k q) := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t (0 : Fin 2) * 30 + 1 * k.val = k.val; rw [e2]; omega
  | ⟨1, _⟩ => show win0_1.index t (1 : Fin 2) * 20 + 1 * q.val = q.val; rw [e3]; omega

/-- What point `t` writes back is block `t` of the product of the arrays. -/
theorem flushed_eq (c : Dev nD) (t : Fin cfg0.N) :
    (dat0 V c).flushed 2 t = ((cfg0.win 2).blk t).view.read (Elt Ideal)
      (Cert.Stages.D0 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x30) hz, View.ld_unit_zero (S := S30x20) hz]
  obtain ⟨-, -, -, -, e4, e5⟩ := idx_facts t
  funext j
  rw [View.read_apply]
  refine (pay0_apply _ _ j).trans ?_
  refine Eq.trans ?_ (D0_apply _ _ _).symm
  refine Finset.sum_congr rfl fun k _ => ?_
  have hj0 : (j 0).val < 5000 := (j 0).isLt
  have hj1 : (j 1).val < 20 := (j 1).isLt
  refine congrArg₂ (fun a b : EReal => a * b) ?_ ?_
  · refine iblk_x_apply V c t _ k _ ?_
    show win0_2.index t (0 : Fin 2) * 5000 + 1 * (j 0).val = 5000 * t.val + (j 0).val
    rw [e4]; omega
  · refine (iblk_w_apply V c t k _).trans ?_
    refine congrArg (fun q : Fin 20 => (V c main_arg2 : S30x20.Idx → Elt Ideal .f32) (ix2 k q)) (Fin.ext ?_)
    show (j 1).val = win0_2.index t (1 : Fin 2) * 20 + 1 * (j 1).val
    rw [e5]; omega

/-- An index of the array is in point `t`'s block iff each coordinate is in the block's range on its axis. -/
theorem mem_blk (t : Fin cfg0.N) (i : S100000x20.Idx) :
    i ∈ ((cfg0.win 2).blk t).view.set ↔ ∀ a : Fin 2, win0_2.index t a * S5000x20.size a ≤ (i a).val ∧ (i a).val < win0_2.index t a * S5000x20.size a + S5000x20.size a := by
  show i ∈ ((View.whole main_v27).slice (win0_2.rect t)).set ↔ _
  rw [View.set_slice_whole, Rect.mem_set_unit]
  exact Iff.rfl

/-- Row `r` of the array is in the block of point `r / 5000`. -/
theorem cover (i : S100000x20.Idx) : ∃ t : Fin cfg0.N, (cfg0.win 2).flush t = true ∧ i ∈ ((cfg0.win 2).blk t).view.set := by
  have hi0 : (i 0).val < 100000 := (i 0).isLt
  have hi1 : (i 1).val < 20 := (i 1).isLt
  have hN : cfg0.N = 20 := N_0
  let t : Fin cfg0.N := ⟨(i 0).val / 5000, by rw [hN]; omega⟩
  obtain ⟨-, -, -, -, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 20 ≤ (i 1).val ∧ (i 1).val < win0_2.index t (1 : Fin 2) * 20 + 20; rw [e5]; omega

end R0

/-- Region 0: the output array after the region is the first projection of the input arrays. -/
theorem final0 (c : Dev nD) : (dat0 (F := Ideal) V c).arrAt 2 cfg0.N = Cert.Stages.D0 (F := Ideal) (V c main_arg0) (V c main_arg2) :=
  (dat0 V c).arrAt_eq_of_cover 2 (Cert.Stages.D0 (F := Ideal) (V c main_arg0) (V c main_arg2))
    (fun t _ => R0.flushed_eq V c t) R0.cover

end Cert.KernelIdeal.RegionValue
end
-- ==== Proof.Region1Row.lean ====
/-
  One row of the activation–pooling–projection stage, and both programs' readings of it.

  Entry (r, q) of the stage is the sum over the 10 adjacent pairs k of the 20 features of
      P (r, k) · W (k, q),   P (r, k) = max (L (r, 2k)) (max (L (r, 2k+1)) (−∞)),   L (r, f) = lrelu (a (r, f) + b (0, f)),
  lrelu z = z where z ≥ 0 and the float nearest 0.01 times z elsewhere.  `rowOut` states that sum for one row of features,
  the bias row and one column of the weights.  The kernel's block payload at (p, q) is `rowOut` of row p of its block
  (`pay_apply`); the reference's whole-array stage at (r, q) is `rowOut` of row r of its array (`D1_apply`).  Each side's
  product is a plain matrix product read as a sum over the contracted axis; each side's pooling is a reshape of the 20
  features to 10 pairs followed by a reduction by `max` from −∞ over the pair's axis, read as the fold of `max` over the
  pair's two coordinates, which is `max` of the two entries and −∞ in that order on both sides.
-/
import proofs.«167082_j19533511262573_2_alg».proof.Proof.Gen.KernelIdeal.Skeleton
import proofs.«167082_j19533511262573_2_alg».proof.Proof.Stages
import proofs.«167082_j19533511262573_2_alg».proof.Proof.LibPlainDot
import Idealize.ShloMosaic.Lib.Pipeline.Value
import Idealize.ShloMosaic.Lib.ValueLayout
import Idealize.ShloMosaic.Lib.IdealHost
import Idealize.ShloMosaic.PureOps.Ideal.Laws

noncomputable section
open scoped BigOperators

namespace Cert.KernelIdeal.RegionValue
open Cert.KernelIdeal Cert.KernelIdeal.Gen Idealize.ShloMosaic
open Idealize.ShloMosaic.ValueIdx

/-! ## One row of the stage -/

/-- Leaky-relu of one value: the value where it is at least 0, the float nearest 0.01 times it elsewhere. -/
def leaky (z : Ideal .f32) : Ideal .f32 :=
  Scalar.select (FloatOps.cmpf .oge z (FloatOps.ofBits .f32 0x00000000#32)) z (FloatOps.ofBits .f32 0x3C23D70A#32 * z)

/-- The maximum, started from −∞, of two values. -/
def pairMax (u v : Ideal .f32) : Ideal .f32 := max u (max v (FloatOps.ofBits .f32 0xFF800000#32))

/-- One entry of the stage from one row `a` of 20 features, the bias row `b` and one column `W` of the weights:
    the sum over the 10 adjacent pairs of (the larger leaky-relu of the biased pair) times the weight. -/
def rowOut (a b : Fin 20 → Ideal .f32) (W : Fin 10 → Ideal .f32) : Ideal .f32 :=
  ∑ k : Fin 10, pairMax (leaky (a ⟨2 * k.val, by omega⟩ + b ⟨2 * k.val, by omega⟩))
      (leaky (a ⟨2 * k.val + 1, by omega⟩ + b ⟨2 * k.val + 1, by omega⟩)) * W k

/-- A fold of `max` over the two coordinates of a pair's axis. -/
theorem fold_max_pair (b : Ideal .f32) (g : Fin 2 → Ideal .f32) :
    (Finset.univ : Finset (Fin 2)).fold max b g = max (g 0) (max (g 1) b) := by
  rw [show (Finset.univ : Finset (Fin 2)) = {0, 1} from by decide, Finset.fold_insert (by decide), Finset.fold_singleton]

/-! ## The kernel's block product -/

abbrev DK := dot_S5000x10_S10x5_S5000x5_1_0_0_1_n_n

theorem dk_rank : DK.contr.rank = 1 := by decide
theorem dk_size : DK.contr.size ⟨0, by decide⟩ = 10 := by decide
theorem dk_l0 (j : S5000x5.Idx) (q : DK.contr.Idx) : (DK.lhsIdx j q 0).val = (j 0).val := by
  simp [DotDims.lhsIdx, DK, dot_S5000x10_S10x5_S5000x5_1_0_0_1_n_n]; rfl
theorem dk_l1 (j : S5000x5.Idx) (q : DK.contr.Idx) : (DK.lhsIdx j q 1).val = (q ⟨0, by decide⟩).val := by
  simp [DotDims.lhsIdx, DK, dot_S5000x10_S10x5_S5000x5_1_0_0_1_n_n]; rfl
theorem dk_r0 (j : S5000x5.Idx) (q : DK.contr.Idx) : (DK.rhsIdx j q 0).val = (q ⟨0, by decide⟩).val := by
  simp [DotDims.rhsIdx, DK, dot_S5000x10_S10x5_S5000x5_1_0_0_1_n_n]; rfl
theorem dk_r1 (j : S5000x5.Idx) (q : DK.contr.Idx) : (DK.rhsIdx j q 1).val = (j 1).val := by
  simp [DotDims.rhsIdx, DK, dot_S5000x10_S10x5_S5000x5_1_0_0_1_n_n]; rfl

/-- The kernel's pooling: the [5000,20] block cast to [5000,10,2] and reduced by `max` from −∞ over the last axis reads,
    at (p, k), the pair maximum of entries 2k and 2k+1 of row p. -/
theorem kpool_apply (L : FVec Ideal S5000x20 .f32) (hφ : FKind.Formats .f32)
    (hacc : (0xFF800000#32 : BitVec 32) = FKind.maximumf.neutral .f32 hφ) (p : Fin 5000) (k : Fin 10) :
    multiReduction .maximumf [2] S5000x10 (shapeCast S5000x10x2 L shapeCasts_S5000x20_S5000x10x2) 0xFF800000#32
        reduces_S5000x10x2_S5000x10 hφ hacc (ix2 p k)
      = pairMax (L (ix2 p ⟨2 * k.val, by omega⟩)) (L (ix2 p ⟨2 * k.val + 1, by omega⟩)) := by
  refine (Ideal.multiReduction_maximumf_single _ _ reduces_S5000x10x2_S5000x10 hφ hacc (ix2 p k)).trans ?_
  refine (fold_max_pair _ _).trans ?_
  unfold pairMax
  have e0 : shapeCast S5000x10x2 L shapeCasts_S5000x20_S5000x10x2 (reduces_S5000x10x2_S5000x10.lift (ix2 p k) (0 : Fin 2))
      = L (ix2 p ⟨2 * k.val, by omega⟩) :=
    shapeCast_apply L _ _ _ (by
      rw [Shape.rowMajor_val_two, Shape.rowMajor_val_three]
      show p.val * 20 + 2 * k.val = (p.val * 10 + k.val) * 2 + 0
      omega)
  have e1 : shapeCast S5000x10x2 L shapeCasts_S5000x20_S5000x10x2 (reduces_S5000x10x2_S5000x10.lift (ix2 p k) (1 : Fin 2))
      = L (ix2 p ⟨2 * k.val + 1, by omega⟩) :=
    shapeCast_apply L _ _ _ (by
      rw [Shape.rowMajor_val_two, Shape.rowMajor_val_three]
      show p.val * 20 + (2 * k.val + 1) = (p.val * 10 + k.val) * 2 + 1
      omega)
  exact congrArg₂ (fun u v : Ideal .f32 => max u (max v (FloatOps.ofBits .f32 0xFF800000#32))) e0 e1

/-- The biased block at (p, f): the row's entry plus the bias row's. -/
theorem biased_apply (x0 : FVec Ideal S5000x20 .f32) (x1 : FVec Ideal S1x20 .f32) (p : Fin 5000) (f : Fin 20) :
    addf (shapeCast S5000x20 x0 shapeCasts_S5000x20_S5000x20)
        (broadcastTo S5000x20 (shapeCast S1x20 x1 shapeCasts_S1x20_S1x20) broadcasts_S1x20_S5000x20) (ix2 p f)
      = x0 (ix2 p f) + x1 (ix2 (0 : Fin 1) f) := by
  rw [shapeCast_self, shapeCast_self]
  exact congrArg (fun u : Ideal .f32 => x0 (ix2 p f) + u) (broadcastTo_1b_ab_apply x1 _ p f)

/-- THE KERNEL'S PAYLOAD AT (p, q): `rowOut` of row p of the feature block, the bias row and column q of the weights. -/
theorem pay_apply (x0 : Vec Ideal S5000x20 .f32) (x1 : Vec Ideal S1x20 .f32) (x2 : Vec Ideal S10x5 .f32) (p : Fin 5000) (q : Fin 5) :
    k1_pay1 x0 x1 x2 (ix2 p q)
      = rowOut (fun f => x0 (ix2 p f)) (fun f => x1 (ix2 (0 : Fin 1) f)) (fun k => x2 (ix2 k q)) := by
  unfold k1_pay1
  refine (Cert.Lib.PlainDot.matmul_zero_apply DK dk_rank dk_size dk_l0 dk_l1 dk_r0 dk_r1 none _ _ (ix2 p q)).trans ?_
  unfold rowOut
  refine Finset.sum_congr rfl fun k _ => ?_
  refine congrArg₂ (fun u v : Ideal .f32 => u * v) ?_ rfl
  refine (truncf_apply _ bitsLt_bf16_f32 _).trans ?_
  refine (kpool_apply _ _ _ p k).trans ?_
  exact congrArg₂ pairMax (congrArg leaky (biased_apply x0 x1 p _)) (congrArg leaky (biased_apply x0 x1 p _))

/-! ## The reference's stage at an index -/

open Cert.ReferenceIdeal Cert.ReferenceIdeal.Facts₀ in
abbrev DR := Cert.ReferenceIdeal.dot_S100000x10_S10x5_S100000x5_1_0_0_1_n_n

theorem dr_rank : DR.contr.rank = 1 := by decide
theorem dr_size : DR.contr.size ⟨0, by decide⟩ = 10 := by decide
theorem dr_l0 (j : Cert.ReferenceIdeal.S100000x5.Idx) (q : DR.contr.Idx) : (DR.lhsIdx j q 0).val = (j 0).val := by
  simp [DotDims.lhsIdx, DR, Cert.ReferenceIdeal.dot_S100000x10_S10x5_S100000x5_1_0_0_1_n_n]; rfl
theorem dr_l1 (j : Cert.ReferenceIdeal.S100000x5.Idx) (q : DR.contr.Idx) : (DR.lhsIdx j q 1).val = (q ⟨0, by decide⟩).val := by
  simp [DotDims.lhsIdx, DR, Cert.ReferenceIdeal.dot_S100000x10_S10x5_S100000x5_1_0_0_1_n_n]; rfl
theorem dr_r0 (j : Cert.ReferenceIdeal.S100000x5.Idx) (q : DR.contr.Idx) : (DR.rhsIdx j q 0).val = (q ⟨0, by decide⟩).val := by
  simp [DotDims.rhsIdx, DR, Cert.ReferenceIdeal.dot_S100000x10_S10x5_S100000x5_1_0_0_1_n_n]; rfl
theorem dr_r1 (j : Cert.ReferenceIdeal.S100000x5.Idx) (q : DR.contr.Idx) : (DR.rhsIdx j q 1).val = (j 1).val := by
  simp [DotDims.rhsIdx, DR, Cert.ReferenceIdeal.dot_S100000x10_S10x5_S100000x5_1_0_0_1_n_n]; rfl

section Reference
open Cert.ReferenceIdeal Cert.ReferenceIdeal.Facts₀

/-- The reference's pooling: the [100000,20] array reshaped to [100000,10,2] and reduced by `max` from −∞ over the last
    axis reads, at (r, k), the pair maximum of entries 2k and 2k+1 of row r. -/
theorem rpool_apply (L : FVec Ideal Cert.ReferenceIdeal.S100000x20 .f32) (r : Fin 100000) (k : Fin 10) :
    Host.reduce FloatOps.maximumf (shapeCast Cert.ReferenceIdeal.S100000x10x2 L shapeCasts_S100000x20_S100000x10x2)
        (constant (F := Ideal) Cert.ReferenceIdeal.S_ .f32 0xFF800000#32) reducesTo_S100000x10x2_S100000x10_d2 h_S_ (ix2 r k)
      = pairMax (L (ix2 r ⟨2 * k.val, by omega⟩)) (L (ix2 r ⟨2 * k.val + 1, by omega⟩)) := by
  have hR : Cert.ReferenceIdeal.S100000x10x2.Reduces [2] Cert.ReferenceIdeal.S100000x10 := by decide
  refine (Host.reduce_eq_fold_single (FloatOps.maximumf (F := Ideal) (φ := .f32)) _ _ reducesTo_S100000x10x2_S100000x10_d2 hR h_S_ (ix2 r k)).trans ?_
  refine (fold_max_pair _ _).trans ?_
  unfold pairMax
  have e0 : shapeCast Cert.ReferenceIdeal.S100000x10x2 L shapeCasts_S100000x20_S100000x10x2 (hR.lift (ix2 r k) (0 : Fin 2))
      = L (ix2 r ⟨2 * k.val, by omega⟩) :=
    shapeCast_apply L _ _ _ (by
      rw [Shape.rowMajor_val_two, Shape.rowMajor_val_three]
      show r.val * 20 + 2 * k.val = (r.val * 10 + k.val) * 2 + 0
      omega)
  have e1 : shapeCast Cert.ReferenceIdeal.S100000x10x2 L shapeCasts_S100000x20_S100000x10x2 (hR.lift (ix2 r k) (1 : Fin 2))
      = L (ix2 r ⟨2 * k.val + 1, by omega⟩) :=
    shapeCast_apply L _ _ _ (by
      rw [Shape.rowMajor_val_two, Shape.rowMajor_val_three]
      show r.val * 20 + (2 * k.val + 1) = (r.val * 10 + k.val) * 2 + 1
      omega)
  exact congrArg₂ (fun u v : Ideal .f32 => max u (max v (FloatOps.ofBits .f32 0xFF800000#32))) e0 e1

/-- The reference's leaky-relu at an index. -/
theorem lrelu20_apply (z : FVec Ideal Cert.ReferenceIdeal.S100000x20 .f32) (i : Cert.ReferenceIdeal.S100000x20.Idx) :
    Cert.Stages.lrelu20 (F := Ideal) z i = leaky (z i) := rfl

/-- The reference's biased array at (r, f). -/
theorem rbiased_apply (a : FVec Ideal Cert.ReferenceIdeal.S100000x20 .f32) (b : FVec Ideal Cert.ReferenceIdeal.S1x20 .f32)
    (r : Fin 100000) (f : Fin 20) :
    addf a (broadcastInDim Cert.ReferenceIdeal.S100000x20 ![0, 1] bcast_S1x20_S100000x20_0_1 b) (ix2 r f)
      = a (ix2 r f) + b (ix2 (0 : Fin 1) f) :=
  congrArg (fun u : Ideal .f32 => a (ix2 r f) + u)
    (broadcastInDim_apply ![0, 1] bcast_S1x20_S100000x20_0_1 b (ix2 r f) (ix2 (0 : Fin 1) f) fun ax => by
      match ax with
      | ⟨0, _⟩ => rfl
      | ⟨1, _⟩ => rfl)

/-- THE REFERENCE'S STAGE AT (r, q): `rowOut` of row r of the features, the bias row and column q of the weights. -/
theorem D1_apply (a : FVec Ideal Cert.ReferenceIdeal.S100000x20 .f32) (b : FVec Ideal Cert.ReferenceIdeal.S1x20 .f32)
    (W : FVec Ideal Cert.ReferenceIdeal.S10x5 .f32) (r : Fin 100000) (q : Fin 5) :
    Cert.Stages.D1 (F := Ideal) a b W (ix2 r q)
      = rowOut (fun f => a (ix2 r f)) (fun f => b (ix2 (0 : Fin 1) f)) (fun k => W (ix2 k q)) := by
  unfold Cert.Stages.D1
  refine (Cert.Lib.PlainDot.dotGeneral_apply DR dr_rank dr_size dr_l0 dr_l1 dr_r0 dr_r1 none .single _ _ (ix2 r q)).trans ?_
  unfold rowOut
  refine Finset.sum_congr rfl fun k _ => ?_
  refine congrArg₂ (fun u v : Ideal .f32 => u * v) ?_ rfl
  refine (rpool_apply _ r k).trans ?_
  exact congrArg₂ pairMax ((lrelu20_apply _ _).trans (congrArg leaky (rbiased_apply a b r _)))
    ((lrelu20_apply _ _).trans (congrArg leaky (rbiased_apply a b r _)))

end Reference

end Cert.KernelIdeal.RegionValue
end
-- ==== Proof.Region1.lean ====
/-
  The value of the activation–pooling–projection region: after its 20 grid points the output array holds the
  whole-array stage `Cert.Stages.D1` of the feature array, the bias row and the weights as the region finds them.

  Point t of the grid stages rows 5000 t … 5000 t + 4999 of the [100000,20] feature array and of the [100000,5] output
  array, and the whole [1,20] bias row and [10,5] weight matrix (`block_indices1`, decided over the grid).  Entry (p, q)
  of what the body stores is `rowOut` of row p of the staged feature block (`pay_apply`), which is row 5000 t + p of the
  feature array (`features_block_apply`); the stage at (5000 t + p, q) is `rowOut` of the same row (`D1_apply`): so the
  point writes back block t of the stage (`written1_eq`).  Row r of the output array lies in the block of point
  r / 5000 (`covered1`), so the blocks fill the array and the array is the stage (`final1`).
-/
import proofs.«167082_j19533511262573_2_alg».proof.Proof.Gen.KernelIdeal.Frame
import proofs.«167082_j19533511262573_2_alg».proof.Proof.Region1Row
import Idealize.ShloMosaic.Lib.Pipeline.Value

set_option maxRecDepth 16384
noncomputable section
open scoped BigOperators

namespace Cert.KernelIdeal.RegionValue
open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The printed index maps over the grid: the feature window and the output window sit at block (t, 0), the bias row and
    the weights at block (0, 0). -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature window's block at point t holds, at (p, f), row 5000 t + p of the feature array. -/
theorem features_block_apply (t : Fin cfg1.N) (p : Fin 5000) (f : Fin 20) (i : S100000x20.Idx)
    (h0 : (i 0).val = 5000 * t.val + p.val) (h1 : (i 1).val = f.val) :
    (iblk1 V c 0 t : Vec Ideal S5000x20 .f32) (ix2 p f) = (V c main_v40 : S100000x20.Idx → Elt Ideal .f32) i := by
  obtain ⟨e0, e1, -⟩ := block_indices1 t
  unfold iblk1
  rw [View.read_apply]
  show V c main_v40 _ = V c main_v40 _
  refine congrArg _ ?_
  funext a
  apply Fin.ext
  match a with
  | ⟨0, _⟩ => show win1_0.index t 0 * 5000 + 1 * p.val = (i 0).val; rw [e0, h0]; omega
  | ⟨1, _⟩ => show win1_0.index t 1 * 20 + 1 * f.val = (i 1).val; rw [e1, h1]; omega

/-- The bias window's block at any point is the bias row. -/
theorem bias_block_apply (t : Fin cfg1.N) (f : Fin 20) :
    (iblk1 V c 1 t : Vec Ideal S1x20 .f32) (ix2 (0 : Fin 1) f) = (V c main_v41 : S1x20.Idx → Elt Ideal .f32) (ix2 (0 : Fin 1) f) := by
  obtain ⟨-, -, e0, e1, -⟩ := block_indices1 t
  unfold iblk1
  rw [View.read_apply]
  show V c main_v41 _ = V c main_v41 _
  refine congrArg _ ?_
  funext a
  apply Fin.ext
  match a with
  | ⟨0, _⟩ => show win1_1.index t 0 * 1 + 1 * 0 = 0; rw [e0]
  | ⟨1, _⟩ => show win1_1.index t 1 * 20 + 1 * f.val = f.val; rw [e1]; omega

/-- The weight window's block at any point is the weight matrix. -/
theorem weights_block_apply (t : Fin cfg1.N) (k : Fin 10) (q : Fin 5) :
    (iblk1 V c 2 t : Vec Ideal S10x5 .f32) (ix2 k q) = (V c main_arg4 : S10x5.Idx → Elt Ideal .f32) (ix2 k q) := by
  obtain ⟨-, -, -, -, e0, e1, -⟩ := block_indices1 t
  unfold iblk1
  rw [View.read_apply]
  show V c main_arg4 _ = V c main_arg4 _
  refine congrArg _ ?_
  funext a
  apply Fin.ext
  match a with
  | ⟨0, _⟩ => show win1_2.index t 0 * 10 + 1 * k.val = k.val; rw [e0]; omega
  | ⟨1, _⟩ => show win1_2.index t 1 * 5 + 1 * q.val = q.val; rw [e1]; omega

/-- WHAT POINT t WRITES BACK is block t of any whole array `G` whose entry (r, q) is `rowOut` of row r of the feature
    array, the bias row and column q of the weights, as the region finds them: at (p, q) of the block the payload is
    `rowOut` of row p of the feature block, which is row 5000 t + p of the feature array. -/
theorem written1_of (t : Fin cfg1.N) (G : FVec Ideal S100000x5 .f32)
    (hG : ∀ (r : Fin 100000) (q : Fin 5), G (ix2 r q)
      = rowOut (fun f => (V c main_v40 : S100000x20.Idx → Elt Ideal .f32) (ix2 r f))
          (fun f => (V c main_v41 : S1x20.Idx → Elt Ideal .f32) (ix2 (0 : Fin 1) f))
          (fun k => (V c main_arg4 : S10x5.Idx → Elt Ideal .f32) (ix2 k q))) :
    (dat1 (F := Ideal) V c).flushed 3 t = ((cfg1.win 3).blk t).view.read (Elt Ideal) G := by
  show (cfg1.win 3).cut (grid1.coords t) ((dat1 (F := Ideal) V c).after 3 t) = _
  rw [after1_3]
  unfold out1_3
  rw [View.canon_unit_zero zero_offsets]
  simp only [View.ld_unit_zero (S := S5000x20) zero_offsets, View.ld_unit_zero (S := S1x20) zero_offsets,
    View.ld_unit_zero (S := S10x5) zero_offsets]
  funext j
  obtain ⟨p, q, rfl⟩ : ∃ (p : Fin 5000) (q : Fin 5), j = ix2 p q := ⟨j 0, j 1, eq_ix2 j⟩
  have ht : t.val < 20 := lt_of_lt_of_eq t.isLt N_1
  obtain ⟨-, -, -, -, -, -, e0, e1⟩ := block_indices1 t
  have hr : ((cfg1.win 3).blk t).view.emb (ix2 p q) = ix2 (⟨5000 * t.val + p.val, by omega⟩ : Fin 100000) q := by
    funext a
    apply Fin.ext
    match a with
    | ⟨0, _⟩ => show win1_3.index t 0 * 5000 + 1 * p.val = 5000 * t.val + p.val; rw [e0]; omega
    | ⟨1, _⟩ => show win1_3.index t 1 * 5 + 1 * q.val = q.val; rw [e1]; omega
  rw [View.read_apply, hr]
  show _ = G (ix2 (⟨5000 * t.val + p.val, by omega⟩ : Fin 100000) q)
  rw [hG]
  refine (pay_apply (iblk1 V c 0 t) (iblk1 V c 1 t) (iblk1 V c 2 t) p q).trans ?_
  have ha : (fun f : Fin 20 => (iblk1 V c 0 t : Vec Ideal S5000x20 .f32) (ix2 p f))
      = fun f : Fin 20 => (V c main_v40 : S100000x20.Idx → Elt Ideal .f32) (ix2 (⟨5000 * t.val + p.val, by omega⟩ : Fin 100000) f) :=
    funext fun f => features_block_apply V c t p f _ rfl rfl
  have hb : (fun f : Fin 20 => (iblk1 V c 1 t : Vec Ideal S1x20 .f32) (ix2 (0 : Fin 1) f))
      = fun f : Fin 20 => (V c main_v41 : S1x20.Idx → Elt Ideal .f32) (ix2 (0 : Fin 1) f) :=
    funext fun f => bias_block_apply V c t f
  have hw : (fun k : Fin 10 => (iblk1 V c 2 t : Vec Ideal S10x5 .f32) (ix2 k q))
      = fun k : Fin 10 => (V c main_arg4 : S10x5.Idx → Elt Ideal .f32) (ix2 k q) :=
    funext fun k => weights_block_apply V c t k q
  exact congr (congr (congrArg rowOut ha) hb) hw

/-- So point t writes back block t of the whole-array stage of the arrays the region finds. -/
theorem written1_eq (t : Fin cfg1.N) :
    (dat1 (F := Ideal) V c).flushed 3 t
      = ((cfg1.win 3).blk t).view.read (Elt Ideal) (Cert.Stages.D1 (F := Ideal) (V c main_v40) (V c main_v41) (V c main_arg4)) :=
  written1_of V c t _ fun r q => D1_apply _ _ _ r q

/-- An index of the output array is in point t's block iff each coordinate is in the block's range on its axis. -/
theorem mem_block1 (t : Fin cfg1.N) (i : S100000x5.Idx) :
    i ∈ ((cfg1.win 3).blk t).view.set
      ↔ ∀ a : Fin 2, win1_3.index t a * S5000x5.size a ≤ (i a).val ∧ (i a).val < win1_3.index t a * S5000x5.size a + S5000x5.size a := by
  show i ∈ ((View.whole main_v42).slice (win1_3.rect t)).set ↔ _
  rw [View.set_slice_whole, Rect.mem_set_unit]
  exact Iff.rfl

/-- Every index of the output array is in the block of the point its row falls in: row r in point r / 5000. -/
theorem covered1 (i : S100000x5.Idx) :
    ∃ t : Fin cfg1.N, (cfg1.win 3).flush t = true ∧ i ∈ ((cfg1.win 3).blk t).view.set := by
  have hi0 : (i 0).val < 100000 := (i 0).isLt
  have hi1 : (i 1).val < 5 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, e0, e1⟩ := block_indices1 t
  refine ⟨t, flush1_3 t, ?_⟩
  rw [mem_block1]
  intro a
  match a with
  | ⟨0, _⟩ =>
    show win1_3.index t 0 * 5000 ≤ (i 0).val ∧ (i 0).val < win1_3.index t 0 * 5000 + 5000
    rw [e0, ht]; omega
  | ⟨1, _⟩ =>
    show win1_3.index t 1 * 5 ≤ (i 1).val ∧ (i 1).val < win1_3.index t 1 * 5 + 5
    rw [e1]; omega

/-- THE OUTPUT ARRAY AFTER THE REGION is the whole-array stage of the arrays the region finds. -/
theorem final1 : (dat1 (F := Ideal) V c).arrAt 3 cfg1.N
    = Cert.Stages.D1 (F := Ideal) (V c main_v40) (V c main_v41) (V c main_arg4) :=
  (dat1 (F := Ideal) V c).arrAt_eq_of_cover 3 (Cert.Stages.D1 (F := Ideal) (V c main_v40) (V c main_v41) (V c main_arg4))
    (fun t _ => written1_eq V c t) covered1

end Cert.KernelIdeal.RegionValue
end
-- ==== Proof.Region2.lean ====
/-
  The third kernel region computes the final stage.

  The region's grid has 20 points; point t stages rows 5000 t … 5000 t + 4999 of the aggregated activations, the
  whole 1 × 5 bias row, the whole 5 × 2 weight and the whole 1 × 2 output bias row, and writes back rows
  5000 t … 5000 t + 4999 of the result.  Its body adds the bias row to every row of the block, applies the leaky
  rectifier (z where z ≥ 0, the float nearest 0.01 times z elsewhere), multiplies by the weight into a zero
  accumulator and adds the output bias row.  At the ideal instance entry (p, q) of that value is
  (sum over k of lr (block (p, k) + bias (0, k)) · weight (k, q)) + outbias (0, q), which is entry (5000 t + p, q)
  of the whole-array final stage; the 20 blocks tile the 100000 rows, so the result array after the region is the
  final stage of the input arrays.
-/
import proofs.«167082_j19533511262573_2_alg».proof.Proof.Gen.KernelIdeal.Frame
import proofs.«167082_j19533511262573_2_alg».proof.Proof.Stages
import proofs.«167082_j19533511262573_2_alg».proof.Proof.LibPlainDot
import Idealize.ShloMosaic.Lib.Pipeline.Value
import Idealize.ShloMosaic.Lib.ValueIdx
import Idealize.ShloMosaic.Lib.ValueLayout
import Idealize.ShloMosaic.Lib.IdealHost

set_option maxRecDepth 16384

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))
namespace R2

/-! ## The activation and the matrix product at an index, on both sides -/

theorem hz : (![0, 0] : Fin 2 → Nat) = fun _ => 0 := funext fun a => by fin_cases a <;> rfl

/-- The leaky rectifier on one extended real: z where z ≥ 0, the float nearest 0.01 times z elsewhere. -/
def lr (z : Ideal .f32) : Ideal .f32 :=
  Scalar.select (FloatOps.cmpf .oge z (Ideal.ofBits .f32 0x00000000#32)) z (Ideal.ofBits .f32 0x3C23D70A#32 * z)

/-- The dimension numbers of the block product and of the whole-array product. -/
abbrev Dk := dot_S5000x5_S5x2_S5000x2_1_0_0_1_n_n
abbrev Dh := Cert.ReferenceIdeal.dot_S100000x5_S5x2_S100000x2_1_0_0_1_n_n

theorem k_l0 (j : S5000x2.Idx) (q : Dk.contr.Idx) : (Dk.lhsIdx j q 0).val = (j 0).val := by
  simp [DotDims.lhsIdx, Dk, dot_S5000x5_S5x2_S5000x2_1_0_0_1_n_n]; rfl
theorem k_l1 (j : S5000x2.Idx) (q : Dk.contr.Idx) : (Dk.lhsIdx j q 1).val = (q ⟨0, by decide⟩).val := by
  simp [DotDims.lhsIdx, Dk, dot_S5000x5_S5x2_S5000x2_1_0_0_1_n_n]; rfl
theorem k_r0 (j : S5000x2.Idx) (q : Dk.contr.Idx) : (Dk.rhsIdx j q 0).val = (q ⟨0, by decide⟩).val := by
  simp [DotDims.rhsIdx, Dk, dot_S5000x5_S5x2_S5000x2_1_0_0_1_n_n]; rfl
theorem k_r1 (j : S5000x2.Idx) (q : Dk.contr.Idx) : (Dk.rhsIdx j q 1).val = (j 1).val := by
  simp [DotDims.rhsIdx, Dk, dot_S5000x5_S5x2_S5000x2_1_0_0_1_n_n]; rfl

theorem h_l0 (j : Cert.ReferenceIdeal.S100000x2.Idx) (q : Dh.contr.Idx) : (Dh.lhsIdx j q 0).val = (j 0).val := by
  simp [DotDims.lhsIdx, Dh, Cert.ReferenceIdeal.dot_S100000x5_S5x2_S100000x2_1_0_0_1_n_n]; rfl
theorem h_l1 (j : Cert.ReferenceIdeal.S100000x2.Idx) (q : Dh.contr.Idx) : (Dh.lhsIdx j q 1).val = (q ⟨0, by decide⟩).val := by
  simp [DotDims.lhsIdx, Dh, Cert.ReferenceIdeal.dot_S100000x5_S5x2_S100000x2_1_0_0_1_n_n]; rfl
theorem h_r0 (j : Cert.ReferenceIdeal.S100000x2.Idx) (q : Dh.contr.Idx) : (Dh.rhsIdx j q 0).val = (q ⟨0, by decide⟩).val := by
  simp [DotDims.rhsIdx, Dh, Cert.ReferenceIdeal.dot_S100000x5_S5x2_S100000x2_1_0_0_1_n_n]; rfl
theorem h_r1 (j : Cert.ReferenceIdeal.S100000x2.Idx) (q : Dh.contr.Idx) : (Dh.rhsIdx j q 1).val = (j 1).val := by
  simp [DotDims.rhsIdx, Dh, Cert.ReferenceIdeal.dot_S100000x5_S5x2_S100000x2_1_0_0_1_n_n]; rfl

/-- The body's payload at an index of the 5000-row block: the rectified biased row times the weight's column, plus
    the output bias. -/
theorem pay2_apply (x0 : Vec Ideal S5000x5 .f32) (x1 : Vec Ideal S1x5 .f32) (x2 : Vec Ideal S5x2 .f32)
    (x3 : Vec Ideal S1x2 .f32) (p : Fin 5000) (q : Fin 2) :
    k2_pay1 x0 x1 x2 x3 (ix2 p q)
      = (∑ k : Fin 5, lr (x0 (ix2 p k) + x1 (ix2 (0 : Fin 1) k)) * x2 (ix2 k q)) + x3 (ix2 (0 : Fin 1) q) := by
  unfold k2_pay1
  simp only [shapeCast_self]
  rw [addf_apply]
  refine congrArg₂ (fun a b : EReal => a + b) ?_ ?_
  · refine (Cert.Lib.PlainDot.matmul_zero_apply Dk (by decide) (by decide) k_l0 k_l1 k_r0 k_r1 none _ _ (ix2 p q)).trans ?_
    refine Finset.sum_congr rfl fun k _ => ?_
    refine congrArg₂ (fun a b : EReal => a * b) ?_ rfl
    rw [truncf_apply, select_apply, cmpf_apply, mulf_apply, addf_apply, broadcast_apply, broadcast_apply]
    rw [broadcastTo_1b_ab_apply]
    rfl
  · exact broadcastTo_1b_ab_apply x3 _ p q

/-- A one-row array broadcast down the rows, read at an index. -/
theorem bcastRow5_apply (h : Cert.ReferenceIdeal.S1x5.BroadcastsInDim Cert.ReferenceIdeal.S100000x5 ![0, 1])
    (b : FVec Ideal Cert.ReferenceIdeal.S1x5 .f32) (r : Fin 100000) (k : Fin 5) :
    broadcastInDim Cert.ReferenceIdeal.S100000x5 ![0, 1] h b (ix2 r k) = b (ix2 (0 : Fin 1) k) :=
  broadcastInDim_apply ![0, 1] h b (ix2 r k) (ix2 (0 : Fin 1) k) (fun a => by
    match a with
    | ⟨0, _⟩ => rfl
    | ⟨1, _⟩ => rfl)
theorem bcastRow2_apply (h : Cert.ReferenceIdeal.S1x2.BroadcastsInDim Cert.ReferenceIdeal.S100000x2 ![0, 1])
    (b : FVec Ideal Cert.ReferenceIdeal.S1x2 .f32) (r : Fin 100000) (q : Fin 2) :
    broadcastInDim Cert.ReferenceIdeal.S100000x2 ![0, 1] h b (ix2 r q) = b (ix2 (0 : Fin 1) q) :=
  broadcastInDim_apply ![0, 1] h b (ix2 r q) (ix2 (0 : Fin 1) q) (fun a => by
    match a with
    | ⟨0, _⟩ => rfl
    | ⟨1, _⟩ => rfl)

/-- The final stage at an index of the array. -/
theorem D2_apply (a : FVec Ideal Cert.ReferenceIdeal.S100000x5 .f32) (b2r : FVec Ideal Cert.ReferenceIdeal.S1x5 .f32)
    (Wl : FVec Ideal Cert.ReferenceIdeal.S5x2 .f32) (blr : FVec Ideal Cert.ReferenceIdeal.S1x2 .f32)
    (r : Fin 100000) (q : Fin 2) :
    Cert.Stages.D2 (F := Ideal) a b2r Wl blr (ix2 r q)
      = (∑ k : Fin 5, lr (a (ix2 r k) + b2r (ix2 (0 : Fin 1) k)) * Wl (ix2 k q)) + blr (ix2 (0 : Fin 1) q) := by
  unfold Cert.Stages.D2
  rw [addf_apply]
  refine congrArg₂ (fun a b : EReal => a + b) ?_ ?_
  · refine (Cert.Lib.PlainDot.dotGeneral_apply Dh (by decide) (by decide) h_l0 h_l1 h_r0 h_r1 none .single _ _ (ix2 r q)).trans ?_
    refine Finset.sum_congr rfl fun k _ => ?_
    refine congrArg₂ (fun a b : EReal => a * b) ?_ rfl
    unfold Cert.Stages.lrelu5
    rw [select_apply, cmpf_apply, mulf_apply, addf_apply, broadcastInDim_scalar_apply, broadcastInDim_scalar_apply]
    show Scalar.select (FloatOps.cmpf .oge (a (ix2 r k) + broadcastInDim Cert.ReferenceIdeal.S100000x5 ![0, 1] _ b2r (ix2 r k)) (Ideal.ofBits .f32 0x00000000#32))
        (a (ix2 r k) + broadcastInDim Cert.ReferenceIdeal.S100000x5 ![0, 1] _ b2r (ix2 r k))
        (Ideal.ofBits .f32 0x3C23D70A#32 * (a (ix2 r k) + broadcastInDim Cert.ReferenceIdeal.S100000x5 ![0, 1] _ b2r (ix2 r k))) = _
    rw [bcastRow5_apply]
    rfl
  · exact bcastRow2_apply _ blr r q

/-! ## From blocks to the array -/

/-- The printed index maps over the grid: the row-block windows sit at block (t, 0), the small operands at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The activations' block at point `t` is rows `5000 t … 5000 t + 4999` of the array. -/
theorem iblk_a_apply (c : Dev nD) (t : Fin cfg2.N) (p : Fin 5000) (k : Fin 5) (r : Fin 100000)
    (hr : r.val = 5000 * t.val + p.val) :
    (iblk2 V c 0 t : Vec Ideal S5000x5 .f32) (ix2 p k) = (V c main_v55 : S100000x5.Idx → Elt Ideal .f32) (ix2 r k) := by
  obtain ⟨e0, e1, -⟩ := idx_facts t
  unfold iblk2
  rw [View.read_apply]
  show V c main_v55 _ = V c main_v55 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 5 + 1 * k.val = k.val; rw [e1]; omega

/-- The bias row's block at every point is the whole row. -/
theorem iblk_b_apply (c : Dev nD) (t : Fin cfg2.N) (z : Fin 1) (k : Fin 5) :
    (iblk2 V c 1 t : Vec Ideal S1x5 .f32) (ix2 z k) = (V c main_v56 : S1x5.Idx → Elt Ideal .f32) (ix2 z k) := by
  obtain ⟨-, -, e2, e3, -⟩ := idx_facts t
  unfold iblk2
  rw [View.read_apply]
  show V c main_v56 _ = V c main_v56 _
  congr 1
  funext a
  apply Fin.ext
  match a with
  | ⟨0, _⟩ => show win2_1.index t (0 : Fin 2) * 1 + 1 * z.val = z.val; rw [e2]; omega
  | ⟨1, _⟩ => show win2_1.index t (1 : Fin 2) * 5 + 1 * k.val = k.val; rw [e3]; omega

/-- The weight's block at every point is the whole array. -/
theorem iblk_w_apply (c : Dev nD) (t : Fin cfg2.N) (k : Fin 5) (q : Fin 2) :
    (iblk2 V c 2 t : Vec Ideal S5x2 .f32) (ix2 k q) = (V c main_arg6 : S5x2.Idx → Elt Ideal .f32) (ix2 k q) := by
  obtain ⟨-, -, -, -, e4, e5, -⟩ := idx_facts t
  unfold iblk2
  rw [View.read_apply]
  show V c main_arg6 _ = V c main_arg6 _
  congr 1
  funext a
  apply Fin.ext
  match a with
  | ⟨0, _⟩ => show win2_2.index t (0 : Fin 2) * 5 + 1 * k.val = k.val; rw [e4]; omega
  | ⟨1, _⟩ => show win2_2.index t (1 : Fin 2) * 2 + 1 * q.val = q.val; rw [e5]; omega

/-- The output bias row's block at every point is the whole row. -/
theorem iblk_o_apply (c : Dev nD) (t : Fin cfg2.N) (z : Fin 1) (q : Fin 2) :
    (iblk2 V c 3 t : Vec Ideal S1x2 .f32) (ix2 z q) = (V c main_v57 : S1x2.Idx → Elt Ideal .f32) (ix2 z q) := by
  obtain ⟨-, -, -, -, -, -, e6, e7, -⟩ := idx_facts t
  unfold iblk2
  rw [View.read_apply]
  show V c main_v57 _ = V c main_v57 _
  congr 1
  funext a
  apply Fin.ext
  match a with
  | ⟨0, _⟩ => show win2_3.index t (0 : Fin 2) * 1 + 1 * z.val = z.val; rw [e6]; omega
  | ⟨1, _⟩ => show win2_3.index t (1 : Fin 2) * 2 + 1 * q.val = q.val; rw [e7]; omega

/-- What point `t` writes back is block `t` of the final stage of the arrays. -/
theorem flushed_eq (c : Dev nD) (t : Fin cfg2.N) :
    (dat2 V c).flushed 4 t = ((cfg2.win 4).blk t).view.read (Elt Ideal)
      (Cert.Stages.D2 (F := Ideal) (V c main_v55) (V c main_v56) (V c main_arg6) (V c main_v57)) := by
  show (cfg2.win 4).cut (grid2.coords t) ((dat2 V c).after 4 t) = _
  rw [after2_4]
  unfold out2_4
  rw [View.canon_unit_zero hz]
  simp only [View.ld_unit_zero (S := S5000x5) hz, View.ld_unit_zero (S := S1x5) hz, View.ld_unit_zero (S := S5x2) hz,
    View.ld_unit_zero (S := S1x2) hz]
  obtain ⟨-, -, -, -, -, -, -, -, e8, e9⟩ := idx_facts t
  funext j
  rw [View.read_apply]
  have hj0 : (j 0).val < 5000 := (j 0).isLt
  have hj1 : (j 1).val < 2 := (j 1).isLt
  let r : Fin 100000 := ⟨5000 * t.val + (j 0).val, by have ht : t.val < 20 := Nat.lt_of_lt_of_eq t.isLt N_2; omega⟩
  have hemb : ((cfg2.win 4).blk t).view.emb j = ix2 r (j 1) := by
    funext a
    apply Fin.ext
    match a with
    | ⟨0, _⟩ => show win2_4.index t (0 : Fin 2) * 5000 + 1 * (j 0).val = 5000 * t.val + (j 0).val; rw [e8]; omega
    | ⟨1, _⟩ => show win2_4.index t (1 : Fin 2) * 2 + 1 * (j 1).val = (j 1).val; rw [e9]; omega
  rw [hemb]
  refine Eq.trans ?_ (D2_apply _ _ _ _ r (j 1)).symm
  refine Eq.trans (congrArg _ (eq_ix2 j)) ?_
  refine (pay2_apply _ _ _ _ (j 0) (j 1)).trans ?_
  refine congrArg₂ (fun a b : EReal => a + b) ?_ (iblk_o_apply V c t 0 (j 1))
  refine Finset.sum_congr rfl fun k _ => ?_
  refine congrArg₂ (fun a b : EReal => a * b) ?_ (iblk_w_apply V c t k (j 1))
  refine congrArg lr ?_
  exact congrArg₂ (fun a b : EReal => a + b) (iblk_a_apply V c t (j 0) k r rfl) (iblk_b_apply V c t 0 k)

/-- An index of the array is in point `t`'s block iff each coordinate is in the block's range on its axis. -/
theorem mem_blk (t : Fin cfg2.N) (i : S100000x2.Idx) :
    i ∈ ((cfg2.win 4).blk t).view.set ↔ ∀ a : Fin 2, win2_4.index t a * S5000x2.size a ≤ (i a).val ∧ (i a).val < win2_4.index t a * S5000x2.size a + S5000x2.size a := by
  show i ∈ ((View.whole main_v58).slice (win2_4.rect t)).set ↔ _
  rw [View.set_slice_whole, Rect.mem_set_unit]
  exact Iff.rfl

/-- Row `r` of the array is in the block of point `r / 5000`. -/
theorem cover (i : S100000x2.Idx) : ∃ t : Fin cfg2.N, (cfg2.win 4).flush t = true ∧ i ∈ ((cfg2.win 4).blk t).view.set := by
  have hi0 : (i 0).val < 100000 := (i 0).isLt
  have hi1 : (i 1).val < 2 := (i 1).isLt
  have hN : cfg2.N = 20 := N_2
  let t : Fin cfg2.N := ⟨(i 0).val / 5000, by rw [hN]; omega⟩
  obtain ⟨-, -, -, -, -, -, -, -, e8, e9⟩ := idx_facts t
  have ht : t.val = (i 0).val / 5000 := rfl
  refine ⟨t, flush2_4 t, ?_⟩
  rw [mem_blk]
  intro a
  match a with
  | ⟨0, _⟩ => show win2_4.index t (0 : Fin 2) * 5000 ≤ (i 0).val ∧ (i 0).val < win2_4.index t (0 : Fin 2) * 5000 + 5000; rw [e8, ht]; omega
  | ⟨1, _⟩ => show win2_4.index t (1 : Fin 2) * 2 ≤ (i 1).val ∧ (i 1).val < win2_4.index t (1 : Fin 2) * 2 + 2; rw [e9]; omega

end R2

/-- Region 2: the output array after the region is the final stage of the input arrays. -/
theorem final2 (c : Dev nD) : (dat2 (F := Ideal) V c).arrAt 4 cfg2.N
    = Cert.Stages.D2 (F := Ideal) (V c main_v55) (V c main_v56) (V c main_arg6) (V c main_v57) :=
  (dat2 V c).arrAt_eq_of_cover 4 (Cert.Stages.D2 (F := Ideal) (V c main_v55) (V c main_v56) (V c main_arg6) (V c main_v57))
    (fun t _ => R2.flushed_eq V c t) R2.cover

end Cert.KernelIdeal.RegionValue
end
-- ==== Proof.RefRun.lean ====
/-
  The reference's @main as the list of its host operations, and its run read back.

  @main runs its statements in two consecutive parts and calls the leaky-relu function twice (which in turn calls
  the select function); unfolding the calls at their buffer records gives one straight line of 127 operations: the
  first part's 66 (`ops0`) followed by the second's 61 (`ops1`).  Every weakly fair execution of @main then terminates
  with each buffer at the fold of the operations' results over its launch contents.
-/
import proofs.«167082_j19533511262573_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The first part's operations, in order, the call of the leaky-relu over [100000,20] unfolded into its seven. -/
abbrev ops0 : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1700000 ![] bcast_S_S1700000 : (⟨S_, .i32⟩ : BufTy).Contents (Elt F) → (⟨S1700000, .i32⟩ : BufTy).Contents (Elt F)),
    StableHlo.binary main_v3 main_v12 main_v13 (cmpi .slt : (⟨S1700000, .i32⟩ : BufTy).Contents (Elt F) → (⟨S1700000, .i32⟩ : BufTy).Contents (Elt F) → (⟨S1700000, .i1⟩ : BufTy).Contents (Elt F)),
    StableHlo.nullary main_c_1 (constantI S_ 32 100000#32),
    StableHlo.unary main_c_1 main_v14 (broadcastInDim S1700000 ![] bcast_S_S1700000 : (⟨S_, .i32⟩ : BufTy).Contents (Elt F) → (⟨S1700000, .i32⟩ : BufTy).Contents (Elt F)),
    StableHlo.binary main_v3 main_v14 main_v15 (addi : (⟨S1700000, .i32⟩ : BufTy).Contents (Elt F) → (⟨S1700000, .i32⟩ : BufTy).Contents (Elt F) → (⟨S1700000, .i32⟩ : BufTy).Contents (Elt F)),
    StableHlo.ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v16 main_v17 (broadcastInDim S1700000x1 ![0] bcast_S1700000_S1700000x1_0 : (⟨S1700000, .i32⟩ : BufTy).Contents (Elt F) → (⟨S1700000x1, .i32⟩ : BufTy).Contents (Elt F)),
    StableHlo.binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_2 (constantI S_ 32 0#32),
    StableHlo.unary main_c_2 main_v19 (broadcastInDim S1700000 ![] bcast_S_S1700000 : (⟨S_, .i32⟩ : BufTy).Contents (Elt F) → (⟨S1700000, .i32⟩ : BufTy).Contents (Elt F)),
    StableHlo.binary main_v6 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v21 (broadcastInDim S1700000 ![] bcast_S_S1700000 : (⟨S_, .i32⟩ : BufTy).Contents (Elt F) → (⟨S1700000, .i32⟩ : BufTy).Contents (Elt F)),
    StableHlo.binary main_v6 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v18 main_v25 main_v26 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v27 ((fun l r => Host.dotGeneral dot_S100000x30_S30x20_S100000x20_1_0_0_1_n_n none l r) : (⟨S100000x30, .f32⟩ : BufTy).Contents (Elt F) → (⟨S30x20, .f32⟩ : BufTy).Contents (Elt F) → (⟨S100000x20, .f32⟩ : BufTy).Contents (Elt F)),
    StableHlo.nullary main_c_4 (constantI S_ 32 0#32),
    StableHlo.unary main_c_4 main_v28 (broadcastInDim S1700000 ![] bcast_S_S1700000 : (⟨S_, .i32⟩ : BufTy).Contents (Elt F) → (⟨S1700000, .i32⟩ : BufTy).Contents (Elt F)),
    StableHlo.binary main_v3 main_v28 main_v29 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v30 (broadcastInDim S1700000 ![] bcast_S_S1700000 : (⟨S_, .i32⟩ : BufTy).Contents (Elt F) → (⟨S1700000, .i32⟩ : BufTy).Contents (Elt F)),
    StableHlo.binary main_v3 main_v30 main_v31 (addi : (⟨S1700000, .i32⟩ : BufTy).Contents (Elt F) → (⟨S1700000, .i32⟩ : BufTy).Contents (Elt F) → (⟨S1700000, .i32⟩ : BufTy).Contents (Elt F)),
    StableHlo.ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v32 main_v33 (broadcastInDim S1700000x1 ![0] bcast_S1700000_S1700000x1_0 : (⟨S1700000, .i32⟩ : BufTy).Contents (Elt F) → (⟨S1700000x1, .i32⟩ : BufTy).Contents (Elt F)),
    StableHlo.binary main_v27 main_v33 main_v34 ((fun x i => Host.gather gather_S100000x20_S1700000x1_S1700000x20_1_0_n_n_0_1_120 x i) : (⟨S100000x20, .f32⟩ : BufTy).Contents (Elt F) → (⟨S1700000x1, .i32⟩ : BufTy).Contents (Elt F) → (⟨S1700000x20, .f32⟩ : BufTy).Contents (Elt F)),
    StableHlo.unary main_v26 main_v35 (broadcastInDim S1700000x1 ![0] bcast_S1700000_S1700000x1_0 : (⟨S1700000, .f32⟩ : BufTy).Contents (Elt F) → (⟨S1700000x1, .f32⟩ : BufTy).Contents (Elt F)),
    StableHlo.unary main_v35 main_v36 (broadcastInDim S1700000x20 ![0, 1] bcast_S1700000x1_S1700000x20_0_1 : (⟨S1700000x1, .f32⟩ : BufTy).Contents (Elt F) → (⟨S1700000x20, .f32⟩ : BufTy).Contents (Elt F)),
    StableHlo.binary main_v34 main_v36 main_v37 (mulf : (⟨S1700000x20, .f32⟩ : BufTy).Contents (Elt F) → (⟨S1700000x20, .f32⟩ : BufTy).Contents (Elt F) → (⟨S1700000x20, .f32⟩ : BufTy).Contents (Elt F)),
    StableHlo.nullary main_cst_6 (constant S_ .f32 0x00000000#32),
    StableHlo.unary main_cst_6 main_v38 (broadcastInDim S100000x20 ![] bcast_S_S100000x20 : (⟨S_, .f32⟩ : BufTy).Contents (Elt F) → (⟨S100000x20, .f32⟩ : BufTy).Contents (Elt F)),
    StableHlo.unary main_v6 main_v39 (broadcastInDim S1700000x1 ![0] bcast_S1700000_S1700000x1_0 : (⟨S1700000, .i32⟩ : BufTy).Contents (Elt F) → (⟨S1700000x1, .i32⟩ : BufTy).Contents (Elt F)),
    StableHlo.ternary main_v38 main_v39 main_v37 main_v40 ((fun x i u => Host.scatterAdd scatter_S100000x20_S1700000x1_S1700000x20_1_0_0_1 x i u) : (⟨S100000x20, .f32⟩ : BufTy).Contents (Elt F) → (⟨S1700000x1, .i32⟩ : BufTy).Contents (Elt F) → (⟨S1700000x20, .f32⟩ : BufTy).Contents (Elt F) → (⟨S100000x20, .f32⟩ : BufTy).Contents (Elt F)),
    StableHlo.unary main_arg3 main_v41 (broadcastInDim S1x20 ![1] bcast_S20_S1x20_1 : (⟨S20, .f32⟩ : BufTy).Contents (Elt F) → (⟨S1x20, .f32⟩ : BufTy).Contents (Elt F)),
    StableHlo.unary main_v41 main_v42 (broadcastInDim S100000x20 ![0, 1] bcast_S1x20_S100000x20_0_1 : (⟨S1x20, .f32⟩ : BufTy).Contents (Elt F) → (⟨S100000x20, .f32⟩ : BufTy).Contents (Elt F)),
    StableHlo.binary main_v40 main_v42 main_v43 (addf : (⟨S100000x20, .f32⟩ : BufTy).Contents (Elt F) → (⟨S100000x20, .f32⟩ : BufTy).Contents (Elt F) → (⟨S100000x20, .f32⟩ : BufTy).Contents (Elt F)),
    StableHlo.TRef.nullary main_call0.cst (constant S_ .f32 0x00000000#32),
    StableHlo.TRef.unary main_call0.cst main_call0.v0 (broadcastInDim S100000x20 ![] bcast_S_S100000x20),
    StableHlo.TRef.binary (.of main_v43 : StableHlo.TRef sig ⟨S100000x20, .f32⟩) main_call0.v0 main_call0.v1 (cmpf .oge),
    StableHlo.TRef.nullary main_call0.cst_0 (constant S_ .f32 0x3C23D70A#32),
    StableHlo.TRef.unary main_call0.cst_0 main_call0.v2 (broadcastInDim S100000x20 ![] bcast_S_S100000x20),
    StableHlo.TRef.binary main_call0.v2 (.of main_v43 : StableHlo.TRef sig ⟨S100000x20, .f32⟩) main_call0.v3 mulf,
    StableHlo.TRef.ternary main_call0.v1 (.of main_v43 : StableHlo.TRef sig ⟨S100000x20, .f32⟩) main_call0.v3 main_call0.call0.v0 select,
    StableHlo.reshape main_v44 main_v45 rfl shapeCasts_S100000x20_S100000x10x2,
    StableHlo.nullary main_cst_7 (constant S_ .f32 0xFF800000#32),
    StableHlo.binary main_v45 main_cst_7 main_v46 ((fun x v => Host.reduce FloatOps.maximumf x v reducesTo_S100000x10x2_S100000x10_d2 h_S_) : (⟨S100000x10x2, .f32⟩ : BufTy).Contents (Elt F) → (⟨S_, .f32⟩ : BufTy).Contents (Elt F) → (⟨S100000x10, .f32⟩ : BufTy).Contents (Elt F)),
    StableHlo.nullary main_v47 (iotaInDim S100000 32 0),
    StableHlo.unary main_arg1 main_v48 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v48 main_v49 rfl shapeCasts_S1x1600000_S1600000 ]

/-- The second part's operations, in order, the call of the leaky-relu over [100000,5] unfolded into its seven. -/
abbrev ops1 : List (HloOp τ sig (Elt F)) :=
  [ StableHlo.binary main_v49 main_v47 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v51 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v51 main_v52 rfl shapeCasts_S1x1600000_S1600000,
    StableHlo.binary main_v52 main_v47 main_v53 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_8 (constant S_ .f32 0x3F800000#32),
    StableHlo.unary main_cst_8 main_v54 (broadcastInDim S1700000 ![] bcast_S_S1700000 : (⟨S_, .f32⟩ : BufTy).Contents (Elt F) → (⟨S1700000, .f32⟩ : BufTy).Contents (Elt F)),
    StableHlo.nullary main_cst_9 (constant S_ .f32 0x00000000#32),
    StableHlo.unary main_cst_9 main_v55 (broadcastInDim S100000 ![] bcast_S_S100000 : (⟨S_, .f32⟩ : BufTy).Contents (Elt F) → (⟨S100000, .f32⟩ : BufTy).Contents (Elt F)),
    StableHlo.unary main_v53 main_v56 (broadcastInDim S1700000x1 ![0] bcast_S1700000_S1700000x1_0 : (⟨S1700000, .i32⟩ : BufTy).Contents (Elt F) → (⟨S1700000x1, .i32⟩ : BufTy).Contents (Elt F)),
    StableHlo.ternary main_v55 main_v56 main_v54 main_v57 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v57 main_v58 (Host.rsqrt : (⟨S100000, .f32⟩ : BufTy).Contents (Elt F) → (⟨S100000, .f32⟩ : BufTy).Contents (Elt F)),
    StableHlo.nullary main_c_10 (constantI S_ 32 0#32),
    StableHlo.unary main_c_10 main_v59 (broadcastInDim S1700000 ![] bcast_S_S1700000 : (⟨S_, .i32⟩ : BufTy).Contents (Elt F) → (⟨S1700000, .i32⟩ : BufTy).Contents (Elt F)),
    StableHlo.binary main_v50 main_v59 main_v60 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v61 (broadcastInDim S1700000 ![] bcast_S_S1700000 : (⟨S_, .i32⟩ : BufTy).Contents (Elt F) → (⟨S1700000, .i32⟩ : BufTy).Contents (Elt F)),
    StableHlo.binary main_v50 main_v61 main_v62 (addi : (⟨S1700000, .i32⟩ : BufTy).Contents (Elt F) → (⟨S1700000, .i32⟩ : BufTy).Contents (Elt F) → (⟨S1700000, .i32⟩ : BufTy).Contents (Elt F)),
    StableHlo.ternary main_v60 main_v62 main_v50 main_v63 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v63 main_v64 (broadcastInDim S1700000x1 ![0] bcast_S1700000_S1700000x1_0 : (⟨S1700000, .i32⟩ : BufTy).Contents (Elt F) → (⟨S1700000x1, .i32⟩ : BufTy).Contents (Elt F)),
    StableHlo.binary main_v58 main_v64 main_v65 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_12 (constantI S_ 32 0#32),
    StableHlo.unary main_c_12 main_v66 (broadcastInDim S1700000 ![] bcast_S_S1700000 : (⟨S_, .i32⟩ : BufTy).Contents (Elt F) → (⟨S1700000, .i32⟩ : BufTy).Contents (Elt F)),
    StableHlo.binary main_v53 main_v66 main_v67 (cmpi .slt : (⟨S1700000, .i32⟩ : BufTy).Contents (Elt F) → (⟨S1700000, .i32⟩ : BufTy).Contents (Elt F) → (⟨S1700000, .i1⟩ : BufTy).Contents (Elt F)),
    StableHlo.nullary main_c_13 (constantI S_ 32 100000#32),
    StableHlo.unary main_c_13 main_v68 (broadcastInDim S1700000 ![] bcast_S_S1700000 : (⟨S_, .i32⟩ : BufTy).Contents (Elt F) → (⟨S1700000, .i32⟩ : BufTy).Contents (Elt F)),
    StableHlo.binary main_v53 main_v68 main_v69 (addi : (⟨S1700000, .i32⟩ : BufTy).Contents (Elt F) → (⟨S1700000, .i32⟩ : BufTy).Contents (Elt F) → (⟨S1700000, .i32⟩ : BufTy).Contents (Elt F)),
    StableHlo.ternary main_v67 main_v69 main_v53 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v70 main_v71 (broadcastInDim S1700000x1 ![0] bcast_S1700000_S1700000x1_0 : (⟨S1700000, .i32⟩ : BufTy).Contents (Elt F) → (⟨S1700000x1, .i32⟩ : BufTy).Contents (Elt F)),
    StableHlo.binary main_v58 main_v71 main_v72 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v65 main_v72 main_v73 (mulf : (⟨S1700000, .f32⟩ : BufTy).Contents (Elt F) → (⟨S1700000, .f32⟩ : BufTy).Contents (Elt F) → (⟨S1700000, .f32⟩ : BufTy).Contents (Elt F)),
    StableHlo.binary main_v46 main_arg4 main_v74 ((fun l r => Host.dotGeneral dot_S100000x10_S10x5_S100000x5_1_0_0_1_n_n none l r) : (⟨S100000x10, .f32⟩ : BufTy).Contents (Elt F) → (⟨S10x5, .f32⟩ : BufTy).Contents (Elt F) → (⟨S100000x5, .f32⟩ : BufTy).Contents (Elt F)),
    StableHlo.nullary main_c_14 (constantI S_ 32 0#32),
    StableHlo.unary main_c_14 main_v75 (broadcastInDim S1700000 ![] bcast_S_S1700000 : (⟨S_, .i32⟩ : BufTy).Contents (Elt F) → (⟨S1700000, .i32⟩ : BufTy).Contents (Elt F)),
    StableHlo.binary main_v50 main_v75 main_v76 (cmpi .slt : (⟨S1700000, .i32⟩ : BufTy).Contents (Elt F) → (⟨S1700000, .i32⟩ : BufTy).Contents (Elt F) → (⟨S1700000, .i1⟩ : BufTy).Contents (Elt F)),
    StableHlo.nullary main_c_15 (constantI S_ 32 100000#32),
    StableHlo.unary main_c_15 main_v77 (broadcastInDim S1700000 ![] bcast_S_S1700000 : (⟨S_, .i32⟩ : BufTy).Contents (Elt F) → (⟨S1700000, .i32⟩ : BufTy).Contents (Elt F)),
    StableHlo.binary main_v50 main_v77 main_v78 (addi : (⟨S1700000, .i32⟩ : BufTy).Contents (Elt F) → (⟨S1700000, .i32⟩ : BufTy).Contents (Elt F) → (⟨S1700000, .i32⟩ : BufTy).Contents (Elt F)),
    StableHlo.ternary main_v76 main_v78 main_v50 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v79 main_v80 (broadcastInDim S1700000x1 ![0] bcast_S1700000_S1700000x1_0 : (⟨S1700000, .i32⟩ : BufTy).Contents (Elt F) → (⟨S1700000x1, .i32⟩ : BufTy).Contents (Elt F)),
    StableHlo.binary main_v74 main_v80 main_v81 ((fun x i => Host.gather gather_S100000x5_S1700000x1_S1700000x5_1_0_n_n_0_1_15 x i) : (⟨S100000x5, .f32⟩ : BufTy).Contents (Elt F) → (⟨S1700000x1, .i32⟩ : BufTy).Contents (Elt F) → (⟨S1700000x5, .f32⟩ : BufTy).Contents (Elt F)),
    StableHlo.unary main_v73 main_v82 (broadcastInDim S1700000x1 ![0] bcast_S1700000_S1700000x1_0 : (⟨S1700000, .f32⟩ : BufTy).Contents (Elt F) → (⟨S1700000x1, .f32⟩ : BufTy).Contents (Elt F)),
    StableHlo.unary main_v82 main_v83 (broadcastInDim S1700000x5 ![0, 1] bcast_S1700000x1_S1700000x5_0_1 : (⟨S1700000x1, .f32⟩ : BufTy).Contents (Elt F) → (⟨S1700000x5, .f32⟩ : BufTy).Contents (Elt F)),
    StableHlo.binary main_v81 main_v83 main_v84 (mulf : (⟨S1700000x5, .f32⟩ : BufTy).Contents (Elt F) → (⟨S1700000x5, .f32⟩ : BufTy).Contents (Elt F) → (⟨S1700000x5, .f32⟩ : BufTy).Contents (Elt F)),
    StableHlo.nullary main_cst_16 (constant S_ .f32 0x00000000#32),
    StableHlo.unary main_cst_16 main_v85 (broadcastInDim S100000x5 ![] bcast_S_S100000x5 : (⟨S_, .f32⟩ : BufTy).Contents (Elt F) → (⟨S100000x5, .f32⟩ : BufTy).Contents (Elt F)),
    StableHlo.unary main_v53 main_v86 (broadcastInDim S1700000x1 ![0] bcast_S1700000_S1700000x1_0 : (⟨S1700000, .i32⟩ : BufTy).Contents (Elt F) → (⟨S1700000x1, .i32⟩ : BufTy).Contents (Elt F)),
    StableHlo.ternary main_v85 main_v86 main_v84 main_v87 ((fun x i u => Host.scatterAdd scatter_S100000x5_S1700000x1_S1700000x5_1_0_0_1 x i u) : (⟨S100000x5, .f32⟩ : BufTy).Contents (Elt F) → (⟨S1700000x1, .i32⟩ : BufTy).Contents (Elt F) → (⟨S1700000x5, .f32⟩ : BufTy).Contents (Elt F) → (⟨S100000x5, .f32⟩ : BufTy).Contents (Elt F)),
    StableHlo.unary main_arg5 main_v88 (broadcastInDim S1x5 ![1] bcast_S5_S1x5_1 : (⟨S5, .f32⟩ : BufTy).Contents (Elt F) → (⟨S1x5, .f32⟩ : BufTy).Contents (Elt F)),
    StableHlo.unary main_v88 main_v89 (broadcastInDim S100000x5 ![0, 1] bcast_S1x5_S100000x5_0_1 : (⟨S1x5, .f32⟩ : BufTy).Contents (Elt F) → (⟨S100000x5, .f32⟩ : BufTy).Contents (Elt F)),
    StableHlo.binary main_v87 main_v89 main_v90 (addf : (⟨S100000x5, .f32⟩ : BufTy).Contents (Elt F) → (⟨S100000x5, .f32⟩ : BufTy).Contents (Elt F) → (⟨S100000x5, .f32⟩ : BufTy).Contents (Elt F)),
    StableHlo.TRef.nullary main_call1.cst (constant S_ .f32 0x00000000#32),
    StableHlo.TRef.unary main_call1.cst main_call1.v0 (broadcastInDim S100000x5 ![] bcast_S_S100000x5),
    StableHlo.TRef.binary (.of main_v90 : StableHlo.TRef sig ⟨S100000x5, .f32⟩) main_call1.v0 main_call1.v1 (cmpf .oge),
    StableHlo.TRef.nullary main_call1.cst_0 (constant S_ .f32 0x3C23D70A#32),
    StableHlo.TRef.unary main_call1.cst_0 main_call1.v2 (broadcastInDim S100000x5 ![] bcast_S_S100000x5),
    StableHlo.TRef.binary main_call1.v2 (.of main_v90 : StableHlo.TRef sig ⟨S100000x5, .f32⟩) main_call1.v3 mulf,
    StableHlo.TRef.ternary main_call1.v1 (.of main_v90 : StableHlo.TRef sig ⟨S100000x5, .f32⟩) main_call1.v3 main_call1.call0.v0 select,
    StableHlo.binary main_v91 main_arg6 main_v92 ((fun l r => Host.dotGeneral dot_S100000x5_S5x2_S100000x2_1_0_0_1_n_n none l r) : (⟨S100000x5, .f32⟩ : BufTy).Contents (Elt F) → (⟨S5x2, .f32⟩ : BufTy).Contents (Elt F) → (⟨S100000x2, .f32⟩ : BufTy).Contents (Elt F)),
    StableHlo.unary main_arg7 main_v93 (broadcastInDim S1x2 ![1] bcast_S2_S1x2_1 : (⟨S2, .f32⟩ : BufTy).Contents (Elt F) → (⟨S1x2, .f32⟩ : BufTy).Contents (Elt F)),
    StableHlo.unary main_v93 main_v94 (broadcastInDim S100000x2 ![0, 1] bcast_S1x2_S100000x2_0_1 : (⟨S1x2, .f32⟩ : BufTy).Contents (Elt F) → (⟨S100000x2, .f32⟩ : BufTy).Contents (Elt F)),
    StableHlo.binary main_v92 main_v94 main_v95 (addf : (⟨S100000x2, .f32⟩ : BufTy).Contents (Elt F) → (⟨S100000x2, .f32⟩ : BufTy).Contents (Elt F) → (⟨S100000x2, .f32⟩ : BufTy).Contents (Elt F)) ]

/-- @main's operations, in order. -/
abbrev ops : List (HloOp τ sig (Elt F)) := ops0 ++ ops1

set_option maxRecDepth 4096 in
theorem main_part0_eq (c : Dev nD) : main_part0 (F := F) c = seq ops0 := by
  simp only [main_part0, fn_leaky_relu.body, fn_where.body, seq, bind_assoc, pure_bind]
  rfl

set_option maxRecDepth 4096 in
theorem main_part1_eq (c : Dev nD) : main_part1 (F := F) c = seq ops1 := by
  simp only [main_part1, fn_leaky_relu_0.body, fn_where_1.body, seq, bind_assoc, pure_bind]

/-- @main is that straight line: the two parts in order, each its own list. -/
theorem main_eq (c : Dev nD) : main (F := F) c = seq ops := by
  rw [show (ops : List (HloOp τ sig (Elt F))) = ops0 ++ ops1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., binary_bufs_sub .., nullary_bufs_sub .., unary_bufs_sub .., reshape_bufs_sub ..⟩

theorem ops1_sub : (ops1 : List (HloOp τ sig (Elt F))).Forall fun op => op.bufs ⊆ tcRefs τ sig :=
  ⟨binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

/-- The fold over two lines in order is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_ops (V : Valuation τ sig (Elt F)) : after (ops (F := F)) V = after ops1 (after ops0 V) :=
  after_append ops0 ops1 V

/-- At the compiled mesh, for any float values, from any memory with zero counters: every weakly fair execution of
    @main on the TensorCores terminates, and every final state has each buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  What the reference's operations leave in the result buffer: the network of the stage functions applied to the eight
  arguments' contents, the arguments themselves unchanged.

  The fold over the operations is read back part by part.  The first part ends with the pooled activations of the
  first layer (neighbour sum of x · W1, bias, leaky-relu, maximum over adjacent feature pairs) and has already rebuilt
  the list 0 … 99999 and the source row of the edge list for the second layer; the second part rebuilds the edge list
  with its self loops and the edge weights from those — the same operations on the same edge list as in the first
  part, hence the same values — and computes the second layer and the output projection.
-/
import proofs.«167082_j19533511262573_2_alg».proof.Proof.RefRun
import proofs.«167082_j19533511262573_2_alg».proof.Proof.Stages
import Idealize.ShloMosaic.PureOps.Ideal

noncomputable section

namespace Cert.ReferenceIdeal.RefRun

open Cert.ReferenceIdeal Cert.ReferenceIdeal.Facts₀ Idealize.ShloMosaic Idealize.ShloMosaic.TcCoe Idealize.SL.Sem Idealize.ShloMosaic.StableHlo Cert.Stages

variable {F : FTy → Type} [FloatOps F]

/-! ## The arguments are never written -/

theorem ops0_arg0 (V : Valuation τ sig (Elt F)) :
    after (ops0 (F := F)) V (main_arg0 : DevRef τ sig) = V (main_arg0 : DevRef τ sig) := by
  after_results_simp

theorem ops0_arg1 (V : Valuation τ sig (Elt F)) :
    after (ops0 (F := F)) V (main_arg1 : DevRef τ sig) = V (main_arg1 : DevRef τ sig) := by
  after_results_simp

theorem ops0_arg2 (V : Valuation τ sig (Elt F)) :
    after (ops0 (F := F)) V (main_arg2 : DevRef τ sig) = V (main_arg2 : DevRef τ sig) := by
  after_results_simp

theorem ops0_arg3 (V : Valuation τ sig (Elt F)) :
    after (ops0 (F := F)) V (main_arg3 : DevRef τ sig) = V (main_arg3 : DevRef τ sig) := by
  after_results_simp

theorem ops0_arg4 (V : Valuation τ sig (Elt F)) :
    after (ops0 (F := F)) V (main_arg4 : DevRef τ sig) = V (main_arg4 : DevRef τ sig) := by
  after_results_simp

theorem ops0_arg5 (V : Valuation τ sig (Elt F)) :
    after (ops0 (F := F)) V (main_arg5 : DevRef τ sig) = V (main_arg5 : DevRef τ sig) := by
  after_results_simp

theorem ops0_arg6 (V : Valuation τ sig (Elt F)) :
    after (ops0 (F := F)) V (main_arg6 : DevRef τ sig) = V (main_arg6 : DevRef τ sig) := by
  after_results_simp

theorem ops0_arg7 (V : Valuation τ sig (Elt F)) :
    after (ops0 (F := F)) V (main_arg7 : DevRef τ sig) = V (main_arg7 : DevRef τ sig) := by
  after_results_simp

theorem ops1_arg0 (V : Valuation τ sig (Elt F)) :
    after (ops1 (F := F)) V (main_arg0 : DevRef τ sig) = V (main_arg0 : DevRef τ sig) := by
  after_results_simp

theorem ops1_arg1 (V : Valuation τ sig (Elt F)) :
    after (ops1 (F := F)) V (main_arg1 : DevRef τ sig) = V (main_arg1 : DevRef τ sig) := by
  after_results_simp

theorem ops1_arg2 (V : Valuation τ sig (Elt F)) :
    after (ops1 (F := F)) V (main_arg2 : DevRef τ sig) = V (main_arg2 : DevRef τ sig) := by
  after_results_simp

theorem ops1_arg3 (V : Valuation τ sig (Elt F)) :
    after (ops1 (F := F)) V (main_arg3 : DevRef τ sig) = V (main_arg3 : DevRef τ sig) := by
  after_results_simp

theorem ops1_arg4 (V : Valuation τ sig (Elt F)) :
    after (ops1 (F := F)) V (main_arg4 : DevRef τ sig) = V (main_arg4 : DevRef τ sig) := by
  after_results_simp

theorem ops1_arg5 (V : Valuation τ sig (Elt F)) :
    after (ops1 (F := F)) V (main_arg5 : DevRef τ sig) = V (main_arg5 : DevRef τ sig) := by
  after_results_simp

theorem ops1_arg6 (V : Valuation τ sig (Elt F)) :
    after (ops1 (F := F)) V (main_arg6 : DevRef τ sig) = V (main_arg6 : DevRef τ sig) := by
  after_results_simp

theorem ops1_arg7 (V : Valuation τ sig (Elt F)) :
    after (ops1 (F := F)) V (main_arg7 : DevRef τ sig) = V (main_arg7 : DevRef τ sig) := by
  after_results_simp

/-! ## The first part -/

/-- The pooled activations the second projection multiplies: bias, leaky-relu, maximum over adjacent feature pairs. -/
def pool (a : FVec F S100000x20 .f32) (b1r : FVec F S1x20 .f32) : FVec F S100000x10 .f32 :=
  Host.reduce FloatOps.maximumf
      (shapeCast S100000x10x2
        (lrelu20 (F := F) (addf a (broadcastInDim S100000x20 ![0, 1] bcast_S1x20_S100000x20_0_1 b1r)))
        shapeCasts_S100000x20_S100000x10x2)
      (constant (F := F) S_ .f32 0xFF800000#32) reducesTo_S100000x10x2_S100000x10_d2 h_S_

/-- The second projection is the pooled activations times W2. -/
theorem D1_eq_pool (a : FVec F S100000x20 .f32) (b1r : FVec F S1x20 .f32) (W2 : FVec F S10x5 .f32) :
    D1 a b1r W2 = Host.dotGeneral dot_S100000x10_S10x5_S100000x5_1_0_0_1_n_n none (pool a b1r) W2 := rfl

attribute [local irreducible] Host.gather Host.scatterAdd Host.reduce in
set_option maxRecDepth 8192 in
set_option maxHeartbeats 2000000 in
/-- After the first part the pooled activations of the first layer are in place. -/
theorem ops0_v46 (V : Valuation τ sig (Elt F)) : after (ops0 (F := F)) V (main_v46 : DevRef τ sig)
    = pool (agg20 (D0 (V (main_arg0 : DevRef τ sig)) (V (main_arg2 : DevRef τ sig))) (V (main_arg1 : DevRef τ sig)))
        (row20 (V (main_arg3 : DevRef τ sig))) := by
  after_results_simp
  rfl

/-- … and the list 0 … 99999 rebuilt for the second layer … -/
theorem ops0_v47 (V : Valuation τ sig (Elt F)) :
    after (ops0 (F := F)) V (main_v47 : DevRef τ sig) = iotaInDim S100000 32 0 := by
  after_results_simp

/-- … and the source row of the edge list. -/
theorem ops0_v49 (V : Valuation τ sig (Elt F)) : after (ops0 (F := F)) V (main_v49 : DevRef τ sig)
    = shapeCast S1600000 (extractStridedSlice S1x1600000 ![0, 0] (V (main_arg1 : DevRef τ sig)) slices_S2x1600000_S1x1600000_0_0)
        shapeCasts_S1x1600000_S1600000 := by
  after_results_simp
  rfl

/-! ## The second part -/

/-- The sources with the self loops appended, from the row and the list the first part left. -/
def src1 (r : Vec F S1600000 .i32) (io : Vec F S100000 .i32) : Vec F S1700000 .i32 :=
  concatenate S1700000 0 [⟨S1600000, r⟩, ⟨S100000, io⟩] concatenates_S1600000_S100000_S1700000_d0

/-- The destinations with the self loops appended, from the edge list and the list the first part left. -/
def dst1 (e : Vec F S2x1600000 .i32) (io : Vec F S100000 .i32) : Vec F S1700000 .i32 :=
  concatenate S1700000 0
    [⟨S1600000, shapeCast S1600000 (extractStridedSlice S1x1600000 ![1, 0] e slices_S2x1600000_S1x1600000_1_0) shapeCasts_S1x1600000_S1600000⟩,
     ⟨S100000, io⟩] concatenates_S1600000_S100000_S1700000_d0

attribute [local irreducible] Host.gather Host.scatterAdd Host.reduce in
set_option maxRecDepth 8192 in
set_option maxHeartbeats 2000000 in
/-- The second part computes the second layer and the output projection from what the first left. -/
theorem ops1_v95 (V : Valuation τ sig (Elt F)) : after (ops1 (F := F)) V (main_v95 : DevRef τ sig)
    = D2 (agg5G (Host.dotGeneral dot_S100000x10_S10x5_S100000x5_1_0_0_1_n_n none (V (main_v46 : DevRef τ sig)) (V (main_arg4 : DevRef τ sig)))
            (src1 (V (main_v49 : DevRef τ sig)) (V (main_v47 : DevRef τ sig)))
            (dst1 (V (main_arg1 : DevRef τ sig)) (V (main_v47 : DevRef τ sig)))
            (normG (src1 (V (main_v49 : DevRef τ sig)) (V (main_v47 : DevRef τ sig)))
                   (dst1 (V (main_arg1 : DevRef τ sig)) (V (main_v47 : DevRef τ sig)))))
        (row5 (V (main_arg5 : DevRef τ sig))) (V (main_arg6 : DevRef τ sig)) (row2 (V (main_arg7 : DevRef τ sig))) := by
  after_results_simp
  rfl

/-! ## The whole line -/

/-- The rebuilt edge list is the first layer's. -/
theorem src1_eq (e : Vec F S2x1600000 .i32) :
    src1 (shapeCast S1600000 (extractStridedSlice S1x1600000 ![0, 0] e slices_S2x1600000_S1x1600000_0_0) shapeCasts_S1x1600000_S1600000)
      (iotaInDim S100000 32 0) = srcFull (F := F) e := rfl
theorem dst1_eq (e : Vec F S2x1600000 .i32) : dst1 e (iotaInDim S100000 32 0) = dstFull (F := F) e := rfl

/-- For any float values: the result buffer ends at the network of the arguments' contents. -/
theorem out_eq_gen (V : Valuation τ sig (Elt F)) :
    after (ops (F := F)) V (main_v95 : DevRef τ sig)
      = Cert.Stages.net (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [after_ops, ops1_v95, ops0_v46, ops0_v47, ops0_v49, ops0_arg1, ops0_arg4, ops0_arg5, ops0_arg6, ops0_arg7,
    src1_eq, dst1_eq, ← D1_eq_pool]
  rfl

/-- At the ideal instance. -/
theorem out_eq (V : Valuation τ sig (Elt Ideal)) :
    after (ops (F := Ideal)) V (main_v95 : DevRef τ sig)
      = Cert.Stages.net (F := Ideal) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) :=
  out_eq_gen V

theorem arg0_eq (V : Valuation τ sig (Elt Ideal)) :
    after (ops (F := Ideal)) V (main_arg0 : DevRef τ sig) = V (main_arg0 : DevRef τ sig) := by
  rw [after_ops, ops1_arg0, ops0_arg0]

theorem arg1_eq (V : Valuation τ sig (Elt Ideal)) :
    after (ops (F := Ideal)) V (main_arg1 : DevRef τ sig) = V (main_arg1 : DevRef τ sig) := by
  rw [after_ops, ops1_arg1, ops0_arg1]

theorem arg2_eq (V : Valuation τ sig (Elt Ideal)) :
    after (ops (F := Ideal)) V (main_arg2 : DevRef τ sig) = V (main_arg2 : DevRef τ sig) := by
  rw [after_ops, ops1_arg2, ops0_arg2]

theorem arg3_eq (V : Valuation τ sig (Elt Ideal)) :
    after (ops (F := Ideal)) V (main_arg3 : DevRef τ sig) = V (main_arg3 : DevRef τ sig) := by
  rw [after_ops, ops1_arg3, ops0_arg3]

theorem arg4_eq (V : Valuation τ sig (Elt Ideal)) :
    after (ops (F := Ideal)) V (main_arg4 : DevRef τ sig) = V (main_arg4 : DevRef τ sig) := by
  rw [after_ops, ops1_arg4, ops0_arg4]

theorem arg5_eq (V : Valuation τ sig (Elt Ideal)) :
    after (ops (F := Ideal)) V (main_arg5 : DevRef τ sig) = V (main_arg5 : DevRef τ sig) := by
  rw [after_ops, ops1_arg5, ops0_arg5]

theorem arg6_eq (V : Valuation τ sig (Elt Ideal)) :
    after (ops (F := Ideal)) V (main_arg6 : DevRef τ sig) = V (main_arg6 : DevRef τ sig) := by
  rw [after_ops, ops1_arg6, ops0_arg6]

theorem arg7_eq (V : Valuation τ sig (Elt Ideal)) :
    after (ops (F := Ideal)) V (main_arg7 : DevRef τ sig) = V (main_arg7 : DevRef τ sig) := by
  rw [after_ops, ops1_arg7, ops0_arg7]

end Cert.ReferenceIdeal.RefRun

end
-- ==== Proof.lean ====
/-
  A three-layer graph-convolution network (two normalised neighbour aggregations around dense projections, a
  leaky-relu and a pairwise feature maximum, then a final linear layer) computed two ways: by a program whose dense
  stages are three pipelined kernels over 5000-row blocks of the 100000 nodes with the gather / scatter-add stages on
  the host between them, and by a reference that is host operations throughout.  Over the extended reals the two end
  with the same result array.

  The proof: each kernel's output array after its region is the reference's dense stage of the region's input arrays
  (a block of a matrix product is the product's rows; the pointwise operations and the pair maximum act row by row; the
  twenty blocks tile the rows) — modules Region0, Region1, Region2; the kernel program's buffer contents are followed
  from the launch through the stretches of host operations and the regions to the result buffer, where they are the
  network `Cert.Stages.net` of the arguments — modules KRun, KChain; the reference's operations compose to the same
  term — modules RefRun, RefOut.  The irregular stages (gather, scatter-add, the degree normalisation) are the same
  host operations in both programs and are never opened.  No law of arithmetic that needs finite inputs is used, so the
  precondition is not consulted.
-/
import proofs.«167082_j19533511262573_2_alg».proof.Defs
import proofs.«167082_j19533511262573_2_alg».proof.Proof.Gen.Kernel
import proofs.«167082_j19533511262573_2_alg».proof.Proof.Gen.Kernel.Frame
import proofs.«167082_j19533511262573_2_alg».proof.Proof.Gen.KernelIdeal
import proofs.«167082_j19533511262573_2_alg».proof.Proof.Gen.KernelIdeal.Frame
import proofs.«167082_j19533511262573_2_alg».proof.Proof.Gen.ReferenceIdeal
import proofs.«167082_j19533511262573_2_alg».proof.Proof.Gen.Pre_finite_inputs
import proofs.«167082_j19533511262573_2_alg».proof.Proof.Stages
import proofs.«167082_j19533511262573_2_alg».proof.Proof.KRun
import proofs.«167082_j19533511262573_2_alg».proof.Proof.KChain
import proofs.«167082_j19533511262573_2_alg».proof.Proof.Region0
import proofs.«167082_j19533511262573_2_alg».proof.Proof.Region1
import proofs.«167082_j19533511262573_2_alg».proof.Proof.Region2
import proofs.«167082_j19533511262573_2_alg».proof.Proof.RefOut
import proofs.«167082_j19533511262573_2_alg».proof.Proof.RefRun
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and keeps its arguments: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- None of the reference's operations writes an argument buffer. -/
theorem ref_arg (V : Valuation Cert.ReferenceIdeal.τ Cert.ReferenceIdeal.sig (Elt Ideal)) :
    after (Cert.ReferenceIdeal.RefRun.ops (F := Ideal)) V (Cert.ReferenceIdeal.main_arg0 : DevRef Cert.ReferenceIdeal.τ Cert.ReferenceIdeal.sig) = V (Cert.ReferenceIdeal.main_arg0 : DevRef Cert.ReferenceIdeal.τ Cert.ReferenceIdeal.sig)
    ∧ after (Cert.ReferenceIdeal.RefRun.ops (F := Ideal)) V (Cert.ReferenceIdeal.main_arg1 : DevRef Cert.ReferenceIdeal.τ Cert.ReferenceIdeal.sig) = V (Cert.ReferenceIdeal.main_arg1 : DevRef Cert.ReferenceIdeal.τ Cert.ReferenceIdeal.sig)
    ∧ after (Cert.ReferenceIdeal.RefRun.ops (F := Ideal)) V (Cert.ReferenceIdeal.main_arg2 : DevRef Cert.ReferenceIdeal.τ Cert.ReferenceIdeal.sig) = V (Cert.ReferenceIdeal.main_arg2 : DevRef Cert.ReferenceIdeal.τ Cert.ReferenceIdeal.sig)
    ∧ after (Cert.ReferenceIdeal.RefRun.ops (F := Ideal)) V (Cert.ReferenceIdeal.main_arg3 : DevRef Cert.ReferenceIdeal.τ Cert.ReferenceIdeal.sig) = V (Cert.ReferenceIdeal.main_arg3 : DevRef Cert.ReferenceIdeal.τ Cert.ReferenceIdeal.sig)
    ∧ after (Cert.ReferenceIdeal.RefRun.ops (F := Ideal)) V (Cert.ReferenceIdeal.main_arg4 : DevRef Cert.ReferenceIdeal.τ Cert.ReferenceIdeal.sig) = V (Cert.ReferenceIdeal.main_arg4 : DevRef Cert.ReferenceIdeal.τ Cert.ReferenceIdeal.sig)
    ∧ after (Cert.ReferenceIdeal.RefRun.ops (F := Ideal)) V (Cert.ReferenceIdeal.main_arg5 : DevRef Cert.ReferenceIdeal.τ Cert.ReferenceIdeal.sig) = V (Cert.ReferenceIdeal.main_arg5 : DevRef Cert.ReferenceIdeal.τ Cert.ReferenceIdeal.sig)
    ∧ after (Cert.ReferenceIdeal.RefRun.ops (F := Ideal)) V (Cert.ReferenceIdeal.main_arg6 : DevRef Cert.ReferenceIdeal.τ Cert.ReferenceIdeal.sig) = V (Cert.ReferenceIdeal.main_arg6 : DevRef Cert.ReferenceIdeal.τ Cert.ReferenceIdeal.sig)
    ∧ after (Cert.ReferenceIdeal.RefRun.ops (F := Ideal)) V (Cert.ReferenceIdeal.main_arg7 : DevRef Cert.ReferenceIdeal.τ Cert.ReferenceIdeal.sig) = V (Cert.ReferenceIdeal.main_arg7 : DevRef Cert.ReferenceIdeal.τ Cert.ReferenceIdeal.sig) :=
  ⟨Cert.ReferenceIdeal.RefRun.arg0_eq V, Cert.ReferenceIdeal.RefRun.arg1_eq V, Cert.ReferenceIdeal.RefRun.arg2_eq V,
   Cert.ReferenceIdeal.RefRun.arg3_eq V, Cert.ReferenceIdeal.RefRun.arg4_eq V, Cert.ReferenceIdeal.RefRun.arg5_eq V,
   Cert.ReferenceIdeal.RefRun.arg6_eq V, Cert.ReferenceIdeal.RefRun.arg7_eq V⟩

/-- The reference is a straight line of host operations: it runs, and no operation writes an argument buffer. -/
theorem frame_referenceIdeal : Cert.frame_ReferenceIdeal := fun m ρ _ =>
  (θ_run Cert.ReferenceIdeal.defs _ _).mono
    (fun r h c =>
      have a := ref_arg (launchContents m c)
      ⟨(h c Cert.ReferenceIdeal.main_arg0).trans a.1, (h c Cert.ReferenceIdeal.main_arg1).trans a.2.1,
       (h c Cert.ReferenceIdeal.main_arg2).trans a.2.2.1, (h c Cert.ReferenceIdeal.main_arg3).trans a.2.2.2.1,
       (h c Cert.ReferenceIdeal.main_arg4).trans a.2.2.2.2.1, (h c Cert.ReferenceIdeal.main_arg5).trans a.2.2.2.2.2.1,
       (h c Cert.ReferenceIdeal.main_arg6).trans a.2.2.2.2.2.2.1, (h c Cert.ReferenceIdeal.main_arg7).trans a.2.2.2.2.2.2.2⟩)
    (Cert.ReferenceIdeal.RefRun.run_main (F := Ideal) m ρ)

/-- The ideal pass rewrote nothing: the idealization is the kernel program's own text read over the extended reals. -/
theorem preserves : Cert.preserves_Kernel_KernelIdeal := trivial

/-- Over the extended reals both programs end with the network of the arguments in their result buffer: the kernel
    program by its regions' values threaded through the host stretches between them, the reference by its operations'
    composed term; the arguments agree, so the results do. -/
theorem algebraic : Cert.algebraic_KernelIdeal_ReferenceIdeal := by
  intro m ρ m' ρ' _ hagree
  refine ⟨fun c => Cert.Stages.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KChain.out_eq m ρ Cert.KernelIdeal.RegionValue.final0 Cert.KernelIdeal.RegionValue.final1 Cert.KernelIdeal.RegionValue.final2 c), (h c).2⟩)
      (Cert.KernelIdeal.KRun.run_main (F := Ideal) m ρ)
  · refine (θ_run Cert.ReferenceIdeal.defs _ _).mono (fun r h c => ?_) (Cert.ReferenceIdeal.RefRun.run_main (F := Ideal) m' ρ')
    have a := ref_arg (launchContents m' c)
    refine ⟨?_, (h c Cert.ReferenceIdeal.main_arg0).trans a.1, (h c Cert.ReferenceIdeal.main_arg1).trans a.2.1,
       (h c Cert.ReferenceIdeal.main_arg2).trans a.2.2.1, (h c Cert.ReferenceIdeal.main_arg3).trans a.2.2.2.1,
       (h c Cert.ReferenceIdeal.main_arg4).trans a.2.2.2.2.1, (h c Cert.ReferenceIdeal.main_arg5).trans a.2.2.2.2.2.1,
       (h c Cert.ReferenceIdeal.main_arg6).trans a.2.2.2.2.2.2.1, (h c Cert.ReferenceIdeal.main_arg7).trans a.2.2.2.2.2.2.2⟩
    refine (h c Cert.ReferenceIdeal.main_v95).trans ((Cert.ReferenceIdeal.RefRun.out_eq (launchContents m' c)).trans ?_)
    have g := hagree c
    show Cert.Stages.net (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) = _
    rw [g.1, g.2.1, g.2.2.1, g.2.2.2.1, g.2.2.2.2.1, g.2.2.2.2.2.1, g.2.2.2.2.2.2.1, g.2.2.2.2.2.2.2]

/-- The certificate: the three frames, the trivial idealization ledger, and the equality of the two results. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
